-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S100000 : Shape := ⟨1, ![100000]⟩
abbrev S5x30 : Shape := ⟨2, ![5, 30]⟩
abbrev S30 : Shape := ⟨1, ![30]⟩
abbrev S30x8 : Shape := ⟨2, ![30, 8]⟩
abbrev S8 : Shape := ⟨1, ![8]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x30 : S_.BroadcastsInDim S5x30 (![] : Fin 0 → Fin S5x30.rank)
  reducesTo_S5x30_S_d0_1 : S5x30.ReducesTo [0, 1] S_
  bcast_S_S30 : S_.BroadcastsInDim S30 (![] : Fin 0 → Fin S30.rank)
  reducesTo_S30_S_d0 : S30.ReducesTo [0] S_
  bcast_S_S30x8 : S_.BroadcastsInDim S30x8 (![] : Fin 0 → Fin S30x8.rank)
  reducesTo_S30x8_S_d0_1 : S30x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S8 .f32) (main_v13 : IVec S_ 1) (main_v16 : IVec S30x8 1) : IVec S_ 1 :=
  let main_c_5 : IVec S_ 1 := constantI S_ 1 1#1
  let main_v17 : IVec S_ 1 := (fun x v => Host.reduce IntOp.andi x v reducesTo_S30x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x5 .f32) (main_arg1 : IVec S2x3200000 32) (main_arg2 : IVec S100000 32) (main_arg3 : FVec F S5x30 .f32) (main_arg4 : FVec F S30 .f32) (main_arg5 : FVec F S30x8 .f32) (main_arg6 : FVec F S8 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x30 .f32 := Host.absf main_arg3
  let main_cst_0 : FVec F S_ .f32 := constant S_ .f32 0x7F800000#32
  let main_v5 : FVec F S5x30 .f32 := broadcastInDim S5x30 ![] bcast_S_S5x30 main_cst_0
  let main_v6 : IVec S5x30 1 := cmpf .olt main_v4 main_v5
  let main_c_1 : IVec S_ 1 := constantI S_ 1 1#1
  let main_v7 : IVec S_ 1 := (fun x v => Host.reduce IntOp.andi x v reducesTo_S5x30_S_d0_1 h_S_) main_v6 main_c_1
  let main_v8 : IVec S_ 1 := andi main_v3 main_v7
  let main_v9 : FVec F S30 .f32 := Host.absf main_arg4
  let main_cst_2 : FVec F S_ .f32 := constant S_ .f32 0x7F800000#32
  let main_v10 : FVec F S30 .f32 := broadcastInDim S30 ![] bcast_S_S30 main_cst_2
  let main_v11 : IVec S30 1 := cmpf .olt main_v9 main_v10
  let main_c_3 : IVec S_ 1 := constantI S_ 1 1#1
  let main_v12 : IVec S_ 1 := (fun x v => Host.reduce IntOp.andi x v reducesTo_S30_S_d0 h_S_) main_v11 main_c_3
  let main_v13 : IVec S_ 1 := andi main_v8 main_v12
  let main_v14 : FVec F S30x8 .f32 := Host.absf main_arg5
  let main_cst_4 : FVec F S_ .f32 := constant S_ .f32 0x7F800000#32
  let main_v15 : FVec F S30x8 .f32 := broadcastInDim S30x8 ![] bcast_S_S30x8 main_cst_4
  let main_v16 : IVec S30x8 1 := cmpf .olt main_v14 main_v15
  fn_part1 (F := F) main_arg6 main_v13 main_v16
-- ==== Kernel.lean ====
abbrev S100000x5 : Shape := ⟨2, ![100000, 5]⟩
abbrev S2x3200000 : Shape := ⟨2, ![2, 3200000]⟩
abbrev S100000 : Shape := ⟨1, ![100000]⟩
abbrev S5x30 : Shape := ⟨2, ![5, 30]⟩
abbrev S30 : Shape := ⟨1, ![30]⟩
abbrev S30x8 : Shape := ⟨2, ![30, 8]⟩
abbrev S8 : Shape := ⟨1, ![8]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S5000x5 : Shape := ⟨2, ![5000, 5]⟩
abbrev S5000x1 : Shape := ⟨2, ![5000, 1]⟩
abbrev S3300000x5 : Shape := ⟨2, ![3300000, 5]⟩
abbrev S1x30 : Shape := ⟨2, ![1, 30]⟩
abbrev S100000x30 : Shape := ⟨2, ![100000, 30]⟩
abbrev S5000x30 : Shape := ⟨2, ![5000, 30]⟩
abbrev S100000x8 : Shape := ⟨2, ![100000, 8]⟩
abbrev S5000x8 : Shape := ⟨2, ![5000, 8]⟩
abbrev S3300000x8 : Shape := ⟨2, ![3300000, 8]⟩
abbrev S1x8 : Shape := ⟨2, ![1, 8]⟩
abbrev S2048x8 : Shape := ⟨2, ![2048, 8]⟩
abbrev S2048 : Shape := ⟨1, ![2048]⟩
abbrev S2048x1 : Shape := ⟨2, ![2048, 1]⟩

abbrev nBuf : Space → Nat
  | .hbm => 82
  | .vmem => 28
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S100000, .i32⟩
  | .hbm, ⟨3, _⟩ => ⟨S5x30, .f32⟩
  | .hbm, ⟨4, _⟩ => ⟨S30, .f32⟩
  | .hbm, ⟨5, _⟩ => ⟨S30x8, .f32⟩
  | .hbm, ⟨6, _⟩ => ⟨S8, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x5, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000x5, .f32⟩
  | .hbm, ⟨41, _⟩ => ⟨S_, .f32⟩
  | .hbm, ⟨42, _⟩ => ⟨S100000x5, .f32⟩
  | .hbm, ⟨43, _⟩ => ⟨S3300000x1, .i32⟩
  | .hbm, ⟨44, _⟩ => ⟨S100000x5, .f32⟩
  | .hbm, ⟨45, _⟩ => ⟨S100000x1, .f32⟩
  | .hbm, ⟨46, _⟩ => ⟨S1x30, .f32⟩
  | .hbm, ⟨47, _⟩ => ⟨S100000x30, .f32⟩
  | .hbm, ⟨48, _⟩ => ⟨S100000x1, .f32⟩
  | .hbm, ⟨49, _⟩ => ⟨S100000x8, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x8, .f32⟩
  | .hbm, ⟨59, _⟩ => ⟨S_, .f32⟩
  | .hbm, ⟨60, _⟩ => ⟨S100000x8, .f32⟩
  | .hbm, ⟨61, _⟩ => ⟨S3300000x1, .i32⟩
  | .hbm, ⟨62, _⟩ => ⟨S100000x8, .f32⟩
  | .hbm, ⟨63, _⟩ => ⟨S100000x1, .f32⟩
  | .hbm, ⟨64, _⟩ => ⟨S1x8, .f32⟩
  | .hbm, ⟨65, _⟩ => ⟨S100000x8, .f32⟩
  | .hbm, ⟨66, _⟩ => ⟨S_, .f32⟩
  | .hbm, ⟨67, _⟩ => ⟨S2048x8, .f32⟩
  | .hbm, ⟨68, _⟩ => ⟨S100000x1, .i32⟩
  | .hbm, ⟨69, _⟩ => ⟨S2048x8, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S2048, .f32⟩
  | .hbm, ⟨74, _⟩ => ⟨S100000x1, .i32⟩
  | .hbm, ⟨75, _⟩ => ⟨S2048, .f32⟩
  | .hbm, ⟨76, _⟩ => ⟨S_, .f32⟩
  | .hbm, ⟨77, _⟩ => ⟨S2048, .f32⟩
  | .hbm, ⟨78, _⟩ => ⟨S2048, .f32⟩
  | .hbm, ⟨79, _⟩ => ⟨S2048x1, .f32⟩
  | .hbm, ⟨80, _⟩ => ⟨S2048x8, .f32⟩
  | .hbm, ⟨81, _⟩ => ⟨S2048x8, .f32⟩
  | .local _ .vmem, ⟨0, _⟩ => ⟨S5000x5, .f32⟩
  | .local _ .vmem, ⟨1, _⟩ => ⟨S5000x5, .f32⟩
  | .local _ .vmem, ⟨2, _⟩ => ⟨S5000x1, .f32⟩
  | .local _ .vmem, ⟨3, _⟩ => ⟨S5000x1, .f32⟩
  | .local _ .vmem, ⟨4, _⟩ => ⟨S5000x5, .f32⟩
  | .local _ .vmem, ⟨5, _⟩ => ⟨S5000x5, .f32⟩
  | .local _ .vmem, ⟨6, _⟩ => ⟨S5000x5, .f32⟩
  | .local _ .vmem, ⟨7, _⟩ => ⟨S5000x5, .f32⟩
  | .local _ .vmem, ⟨8, _⟩ => ⟨S5x30, .f32⟩
  | .local _ .vmem, ⟨9, _⟩ => ⟨S5000x1, .f32⟩
  | .local _ .vmem, ⟨10, _⟩ => ⟨S5000x1, .f32⟩
  | .local _ .vmem, ⟨11, _⟩ => ⟨S1x30, .f32⟩
  | .local _ .vmem, ⟨12, _⟩ => ⟨S5000x30, .f32⟩
  | .local _ .vmem, ⟨13, _⟩ => ⟨S5000x30, .f32⟩
  | .local _ .vmem, ⟨14, _⟩ => ⟨S5000x30, .f32⟩
  | .local _ .vmem, ⟨15, _⟩ => ⟨S5000x30, .f32⟩
  | .local _ .vmem, ⟨16, _⟩ => ⟨S30x8, .f32⟩
  | .local _ .vmem, ⟨17, _⟩ => ⟨S5000x1, .f32⟩
  | .local _ .vmem, ⟨18, _⟩ => ⟨S5000x1, .f32⟩
  | .local _ .vmem, ⟨19, _⟩ => ⟨S5000x8, .f32⟩
  | .local _ .vmem, ⟨20, _⟩ => ⟨S5000x8, .f32⟩
  | .local _ .vmem, ⟨21, _⟩ => ⟨S5000x8, .f32⟩
  | .local _ .vmem, ⟨22, _⟩ => ⟨S5000x8, .f32⟩
  | .local _ .vmem, ⟨23, _⟩ => ⟨S5000x1, .f32⟩
  | .local _ .vmem, ⟨24, _⟩ => ⟨S5000x1, .f32⟩
  | .local _ .vmem, ⟨25, _⟩ => ⟨S1x8, .f32⟩
  | .local _ .vmem, ⟨26, _⟩ => ⟨S5000x8, .f32⟩
  | .local _ .vmem, ⟨27, _⟩ => ⟨S5000x8, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x30 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x30 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x30 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x30 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S30x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x8 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x5_S5000x5_0_0 : ∀ a, (![0, 0] : Fin 2 → Nat) a + S5000x5.size a ≤ S5000x5.size a
  h_S5000x5 : 0 < S5000x5.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x5 : S5000x1.Broadcasts S5000x5
  bcast_S_S100000x5 : S_.BroadcastsInDim S100000x5 (![] : Fin 0 → Fin S100000x5.rank)
  shapeCasts_S30_S1x30 : S30.ShapeCasts S1x30
  shapeCasts_S5000x5_S5000x5 : S5000x5.ShapeCasts S5000x5
  bitsLt_bf16_f32 : FTy.bits .bf16 < FTy.bits .f32
  inb_S5x30_S5x30_0_0 : ∀ a, (![0, 0] : Fin 2 → Nat) a + S5x30.size a ≤ S5x30.size a
  h_S5x30 : 0 < S5x30.numel
  broadcasts_S5000x1_S5000x30 : S5000x1.Broadcasts S5000x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S5000x30 : S1x30.Broadcasts S5000x30
  inb_S5000x30_S5000x30_0_0 : ∀ a, (![0, 0] : Fin 2 → Nat) a + S5000x30.size a ≤ S5000x30.size a
  h_S5000x30 : 0 < S5000x30.numel
  shapeCasts_S5000x30_S5000x30 : S5000x30.ShapeCasts S5000x30
  inb_S30x8_S30x8_0_0 : ∀ a, (![0, 0] : Fin 2 → Nat) a + S30x8.size a ≤ S30x8.size a
  h_S30x8 : 0 < S30x8.numel
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  bcast_S_S2048x8 : S_.BroadcastsInDim S2048x8 (![] : Fin 0 → Fin S2048x8.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x8_0_1 : S2048x1.BroadcastsInDim S2048x8 (![0, 1] : Fin 2 → Fin S2048x8.rank)
  scatter_S100000_S3300000x1_S3300000_n_0_0_1_wf : ScatterDims.WF S100000 S3300000x1 S3300000 [] [0] [0] 1
  gather_S100000x5_S3300000x1_S3300000x5_1_0_n_n_0_1_15_wf : GatherDims.WF S100000x5 S3300000x1 S3300000x5 [1] [0] [] [0] [] 1 ![1, 5]
  scatter_S100000x5_S3300000x1_S3300000x5_1_0_0_1_wf : ScatterDims.WF S100000x5 S3300000x1 S3300000x5 [1] [0] [0] 1
  dot_S5000x5_S5x30_S5000x30_1_0_0_1_n_n_wf : DotDims.WF S5000x5 S5x30 S5000x30 [1] [0] [0] [1] [] []
  dot_S5000x30_S30x8_S5000x8_1_0_0_1_n_n_wf : DotDims.WF S5000x30 S30x8 S5000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  scatter_S2048x8_S100000x1_S100000x8_1_0_0_1_wf : ScatterDims.WF S2048x8 S100000x1 S100000x8 [1] [0] [0] 1
  scatter_S2048_S100000x1_S100000_n_0_0_1_wf : ScatterDims.WF S2048 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x5.size a ≤ S100000x5.size a
  hwx0_2 : ∀ i : grid0.Coords, EltTy.bits .f32 = 32 ∨ (Rect.block (s := S100000x5) S5000x5.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x5.size a ≤ S100000x5.size a
  hwx1_0 : ∀ i : grid1.Coords, EltTy.bits .f32 = 32 ∨ (Rect.block (s := S100000x5) S5000x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x30.size a ≤ S5x30.size a
  hwx1_1 : ∀ i : grid1.Coords, EltTy.bits .f32 = 32 ∨ (Rect.block (s := S5x30) S5x30.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x30.size a ≤ S1x30.size a
  hwx1_3 : ∀ i : grid1.Coords, EltTy.bits .f32 = 32 ∨ (Rect.block (s := S1x30) S1x30.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x30.size a ≤ S100000x30.size a
  hwx1_4 : ∀ i : grid1.Coords, EltTy.bits .f32 = 32 ∨ (Rect.block (s := S100000x30) S5000x30.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x30.size a ≤ S100000x30.size a
  hwx2_0 : ∀ i : grid2.Coords, EltTy.bits .f32 = 32 ∨ (Rect.block (s := S100000x30) S5000x30.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S30x8.size a ≤ S30x8.size a
  hwx2_1 : ∀ i : grid2.Coords, EltTy.bits .f32 = 32 ∨ (Rect.block (s := S30x8) S30x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x8.size a ≤ S100000x8.size a
  hwx2_3 : ∀ i : grid2.Coords, EltTy.bits .f32 = 32 ∨ (Rect.block (s := S100000x8) S5000x8.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x8.size a ≤ S100000x8.size a
  hwx3_0 : ∀ i : grid3.Coords, EltTy.bits .f32 = 32 ∨ (Rect.block (s := S100000x8) S5000x8.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8.size a ≤ S1x8.size a
  hwx3_2 : ∀ i : grid3.Coords, EltTy.bits .f32 = 32 ∨ (Rect.block (s := S1x8) S1x8.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x8.size a ≤ S100000x8.size a
  hwx3_3 : ∀ i : grid3.Coords, EltTy.bits .f32 = 32 ∨ (Rect.block (s := S100000x8) S5000x8.size (cc3_transform_3 i) (hinb3_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000x5_S3300000x1_S3300000x5_1_0_n_n_0_1_15 : GatherDims S100000x5 S3300000x1 S3300000x5 where
  offsetDims := [1]
  collapsedSliceDims := [0]
  operandBatchingDims := []
  startIndicesBatchingDims := []
  startIndexMap := [0]
  indexVectorDim := 1
  sliceSizes := ![1, 5]
  wf := gather_S100000x5_S3300000x1_S3300000x5_1_0_n_n_0_1_15_wf
def scatter_S100000x5_S3300000x1_S3300000x5_1_0_0_1 : ScatterDims S100000x5 S3300000x1 S3300000x5 where
  updateWindowDims := [1]
  insertedWindowDims := [0]
  scatterDimsToOperandDims := [0]
  indexVectorDim := 1
  wf := scatter_S100000x5_S3300000x1_S3300000x5_1_0_0_1_wf
def dot_S5000x5_S5x30_S5000x30_1_0_0_1_n_n : DotDims S5000x5 S5x30 S5000x30 where
  lhsContracting := [1]
  rhsContracting := [0]
  lhsNonContracting := [0]
  rhsNonContracting := [1]
  lhsBatch := []
  rhsBatch := []
  wf := dot_S5000x5_S5x30_S5000x30_1_0_0_1_n_n_wf
def dot_S5000x30_S30x8_S5000x8_1_0_0_1_n_n : DotDims S5000x30 S30x8 S5000x8 where
  lhsContracting := [1]
  rhsContracting := [0]
  lhsNonContracting := [0]
  rhsNonContracting := [1]
  lhsBatch := []
  rhsBatch := []
  wf := dot_S5000x30_S30x8_S5000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def scatter_S2048x8_S100000x1_S100000x8_1_0_0_1 : ScatterDims S2048x8 S100000x1 S100000x8 where
  updateWindowDims := [1]
  insertedWindowDims := [0]
  scatterDimsToOperandDims := [0]
  indexVectorDim := 1
  wf := scatter_S2048x8_S100000x1_S100000x8_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S5x30.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x30.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x30.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S5000x30.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S30x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S5000x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S5000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S5000x8.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S100000 : Shape := ⟨1, ![100000]⟩
abbrev S5x30 : Shape := ⟨2, ![5, 30]⟩
abbrev S30 : Shape := ⟨1, ![30]⟩
abbrev S30x8 : Shape := ⟨2, ![30, 8]⟩
abbrev S8 : Shape := ⟨1, ![8]⟩
abbrev S1x3200000 : Shape := ⟨2, ![1, 3200000]⟩
abbrev S3200000 : Shape := ⟨1, ![3200000]⟩
abbrev S3300000 : Shape := ⟨1, ![3300000]⟩
abbrev S100000x30 : Shape := ⟨2, ![100000, 30]⟩
abbrev S_ : Shape := ⟨0, ![]⟩
abbrev S3300000x1 : Shape := ⟨2, ![3300000, 1]⟩
abbrev S3300000x30 : Shape := ⟨2, ![3300000, 30]⟩
abbrev S1x30 : Shape := ⟨2, ![1, 30]⟩
abbrev S100000x8 : Shape := ⟨2, ![100000, 8]⟩
abbrev S3300000x8 : Shape := ⟨2, ![3300000, 8]⟩
abbrev S1x8 : Shape := ⟨2, ![1, 8]⟩
abbrev S2048x8 : Shape := ⟨2, ![2048, 8]⟩
abbrev S100000x1 : Shape := ⟨2, ![100000, 1]⟩
abbrev S2048 : Shape := ⟨1, ![2048]⟩
abbrev S2048x1 : Shape := ⟨2, ![2048, 1]⟩

abbrev nBuf : Space → Nat
  | .hbm => 143
  | .vmem => 0
  | .smem => 0
  | _ => 0

abbrev hbmTy0_0 (i : Nat) : BufTy := match i % 128 with
  | 0 => ⟨S100000x5, .f32⟩
  | 1 => ⟨S2x3200000, .i32⟩
  | 2 => ⟨S100000, .i32⟩
  | 3 => ⟨S5x30, .f32⟩
  | 4 => ⟨S30, .f32⟩
  | 5 => ⟨S30x8, .f32⟩
  | 6 => ⟨S8, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S100000x30, .f32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x30, .f32⟩
  | 59 => ⟨S3300000x1, .f32⟩
  | 60 => ⟨S3300000x30, .f32⟩
  | 61 => ⟨S3300000x30, .f32⟩
  | 62 => ⟨S_, .f32⟩
  | 63 => ⟨S100000x30, .f32⟩
  | 64 => ⟨S3300000x1, .i32⟩
  | 65 => ⟨S100000x30, .f32⟩
  | 66 => ⟨S1x30, .f32⟩
  | 67 => ⟨S100000x30, .f32⟩
  | 68 => ⟨S100000x30, .f32⟩
  | 69 => ⟨S_, .f32⟩
  | 70 => ⟨S100000x30, .f32⟩
  | 71 => ⟨S100000x30, .f32⟩
  | 72 => ⟨S100000x8, .f32⟩
  | 73 => ⟨S_, .f32⟩
  | 74 => ⟨S3300000, .f32⟩
  | 75 => ⟨S_, .f32⟩
  | 76 => ⟨S100000, .f32⟩
  | 77 => ⟨S3300000x1, .i32⟩
  | 78 => ⟨S100000, .f32⟩
  | 79 => ⟨S_, .f32⟩
  | 80 => ⟨S100000, .f32⟩
  | 81 => ⟨S100000, .i1⟩
  | 82 => ⟨S_, .f32⟩
  | 83 => ⟨S100000, .f32⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000x8, .f32⟩
  | 117 => ⟨S3300000x1, .f32⟩
  | 118 => ⟨S3300000x8, .f32⟩
  | 119 => ⟨S3300000x8, .f32⟩
  | 120 => ⟨S_, .f32⟩
  | 121 => ⟨S100000x8, .f32⟩
  | 122 => ⟨S3300000x1, .i32⟩
  | 123 => ⟨S100000x8, .f32⟩
  | 124 => ⟨S1x8, .f32⟩
  | 125 => ⟨S100000x8, .f32⟩
  | 126 => ⟨S100000x8, .f32⟩
  | 127 => ⟨S_, .f32⟩
  | _ => ⟨S100000x5, .f32⟩

abbrev hbmTy0_1 (i : Nat) : BufTy := match i % 128 with
  | 0 => ⟨S2048x8, .f32⟩
  | 1 => ⟨S100000x1, .i32⟩
  | 2 => ⟨S2048x8, .f32⟩
  | 3 => ⟨S_, .f32⟩
  | 4 => ⟨S100000, .f32⟩
  | 5 => ⟨S_, .f32⟩
  | 6 => ⟨S2048, .f32⟩
  | 7 => ⟨S100000x1, .i32⟩
  | 8 => ⟨S2048, .f32⟩
  | 9 => ⟨S_, .f32⟩
  | 10 => ⟨S2048, .f32⟩
  | 11 => ⟨S2048, .f32⟩
  | 12 => ⟨S2048x1, .f32⟩
  | 13 => ⟨S2048x8, .f32⟩
  | 14 => ⟨S2048x8, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_call2_v0 : Ref sig .tc := ⟨.hbm, 86, rfl⟩
abbrev main_call2_v1 : Ref sig .tc := ⟨.hbm, 87, rfl⟩
abbrev main_v58 : Ref sig .tc := ⟨.hbm, 88, rfl⟩
abbrev main_c_15 : Ref sig .tc := ⟨.hbm, 89, rfl⟩
abbrev main_v59 : Ref sig .tc := ⟨.hbm, 90, rfl⟩
abbrev main_v60 : Ref sig .tc := ⟨.hbm, 91, rfl⟩
abbrev main_c_16 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_17 : Ref sig .tc := ⟨.hbm, 98, rfl⟩
abbrev main_v66 : Ref sig .tc := ⟨.hbm, 99, rfl⟩
abbrev main_v67 : Ref sig .tc := ⟨.hbm, 100, rfl⟩
abbrev main_c_18 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_19 : Ref sig .tc := ⟨.hbm, 108, rfl⟩
abbrev main_v74 : Ref sig .tc := ⟨.hbm, 109, rfl⟩
abbrev main_v75 : Ref sig .tc := ⟨.hbm, 110, rfl⟩
abbrev main_c_20 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_21 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_22 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_23 : Ref sig .tc := ⟨.hbm, 131, rfl⟩
abbrev main_v93 : Ref sig .tc := ⟨.hbm, 132, rfl⟩
abbrev main_cst_24 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_25 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x30_0_1 : S3300000x1.BroadcastsInDim S3300000x30 (![0, 1] : Fin 2 → Fin S3300000x30.rank)
  bcast_S_S100000x30 : S_.BroadcastsInDim S100000x30 (![] : Fin 0 → Fin S100000x30.rank)
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S2048x8 : S_.BroadcastsInDim S2048x8 (![] : Fin 0 → Fin S2048x8.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x8_0_1 : S2048x1.BroadcastsInDim S2048x8 (![0, 1] : Fin 2 → Fin S2048x8.rank)
  dot_S100000x5_S5x30_S100000x30_1_0_0_1_n_n_wf : DotDims.WF S100000x5 S5x30 S100000x30 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x30_S3300000x1_S3300000x30_1_0_n_n_0_1_130_wf : GatherDims.WF S100000x30 S3300000x1 S3300000x30 [1] [0] [] [0] [] 1 ![1, 30]
  scatter_S100000x30_S3300000x1_S3300000x30_1_0_0_1_wf : ScatterDims.WF S100000x30 S3300000x1 S3300000x30 [1] [0] [0] 1
  dot_S100000x30_S30x8_S100000x8_1_0_0_1_n_n_wf : DotDims.WF S100000x30 S30x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  scatter_S2048x8_S100000x1_S100000x8_1_0_0_1_wf : ScatterDims.WF S2048x8 S100000x1 S100000x8 [1] [0] [0] 1
  scatter_S2048_S100000x1_S100000_n_0_0_1_wf : ScatterDims.WF S2048 S100000x1 S100000 [] [0] [0] 1

variable [Facts₀]

def dot_S100000x5_S5x30_S100000x30_1_0_0_1_n_n : DotDims S100000x5 S5x30 S100000x30 where
  lhsContracting := [1]
  rhsContracting := [0]
  lhsNonContracting := [0]
  rhsNonContracting := [1]
  lhsBatch := []
  rhsBatch := []
  wf := dot_S100000x5_S5x30_S100000x30_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x30_S3300000x1_S3300000x30_1_0_n_n_0_1_130 : GatherDims S100000x30 S3300000x1 S3300000x30 where
  offsetDims := [1]
  collapsedSliceDims := [0]
  operandBatchingDims := []
  startIndicesBatchingDims := []
  startIndexMap := [0]
  indexVectorDim := 1
  sliceSizes := ![1, 30]
  wf := gather_S100000x30_S3300000x1_S3300000x30_1_0_n_n_0_1_130_wf
def scatter_S100000x30_S3300000x1_S3300000x30_1_0_0_1 : ScatterDims S100000x30 S3300000x1 S3300000x30 where
  updateWindowDims := [1]
  insertedWindowDims := [0]
  scatterDimsToOperandDims := [0]
  indexVectorDim := 1
  wf := scatter_S100000x30_S3300000x1_S3300000x30_1_0_0_1_wf
def dot_S100000x30_S30x8_S100000x8_1_0_0_1_n_n : DotDims S100000x30 S30x8 S100000x8 where
  lhsContracting := [1]
  rhsContracting := [0]
  lhsNonContracting := [0]
  rhsNonContracting := [1]
  lhsBatch := []
  rhsBatch := []
  wf := dot_S100000x30_S30x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def scatter_S2048x8_S100000x1_S100000x8_1_0_0_1 : ScatterDims S2048x8 S100000x1 S100000x8 where
  updateWindowDims := [1]
  insertedWindowDims := [0]
  scatterDimsToOperandDims := [0]
  indexVectorDim := 1
  wf := scatter_S2048x8_S100000x1_S100000x8_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf

class Facts : Prop extends Facts₀ where

variable [Facts]
-- ==== Proof.KRun.lean ====
/-
  The idealized kernel program's run with its result named.

  The program is four TensorCore regions among five stretches of host operations. Its run is the launch of that chain of
  segments: every weakly fair execution terminates without a fault, and in the final state every unscoped buffer holds
  what the last boundary of the chain says it holds. Read at the result buffer that is the last boundary's contents
  there; read at an argument buffer it is the launch contents, since no segment writes an argument.
-/
import proofs.«111428_j16561393893563_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument as launched. -/
theorem run_named : θ_run defs (onTc (τ := τ) (main (F := F))) ⟨m, fun _ => 0, ρ⟩ (fun r => ∀ c : Dev nD,
      r.2.mem ((c.tc : Thread nD τ).loc main_v57) = W11 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v57 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.Named

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.Pay.lean ====
/-
  The four kernel bodies, each read at one entry of its output block.

  Every body loads whole blocks, computes, and stores one whole block. With a block of rows `x`, a column `s` of
  per-row scales (one entry per row), a small matrix `w` and a row `b` of biases, at entry `(p, q)`:
    * the scaling body gives            x(p,q) · s(p);
    * the first projection body gives    max((∑ₖ x(p,k) · w(k,q)) · s(p) + b(q), 0);
    * the second projection body gives   (∑ₖ x(p,k) · w(k,q)) · s(p);
    * the scale-and-bias body gives      x(p,q) · s(p) + b(q).
  A change of float format is the identity on the extended reals, and a matrix product into a zero accumulator is the
  plain sum over the contracted index.
-/
import proofs.«111428_j16561393893563_2_alg».proof.Proof.Gen.KernelIdeal.Skeleton
import proofs.«111428_j16561393893563_2_alg».proof.Proof.LibColumns
import proofs.«111428_j16561393893563_2_alg».proof.Proof.LibDotRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Hand

/-- The first projection's matrix product at `(p, q)`: the sum over the five contracted columns. -/
theorem mm1 (l : FVec Ideal S5000x5 .bf16) (r : FVec Ideal S5x30 .bf16) (p : Fin 5000) (q : Fin 30) :
    matmul dot_S5000x5_S5x30_S5000x30_1_0_0_1_n_n none l r (constant (F := Ideal) S5000x30 .f32 0x00000000#32) (ix2 p q)
      = ∑ k : Fin 5, l (ix2 p k) * r (ix2 k q) := by
  refine (Ideal.matmul_constant_zero_apply dot_S5000x5_S5x30_S5000x30_1_0_0_1_n_n none l r (ix2 p q)).trans ?_
  dot_rows dot_S5000x5_S5x30_S5000x30_1_0_0_1_n_n S5000x5 S5x30 5

/-- The second projection's matrix product at `(p, q)`: the sum over the thirty contracted columns. -/
theorem mm2 (l : FVec Ideal S5000x30 .bf16) (r : FVec Ideal S30x8 .bf16) (p : Fin 5000) (q : Fin 8) :
    matmul dot_S5000x30_S30x8_S5000x8_1_0_0_1_n_n none l r (constant (F := Ideal) S5000x8 .f32 0x00000000#32) (ix2 p q)
      = ∑ k : Fin 30, l (ix2 p k) * r (ix2 k q) := by
  refine (Ideal.matmul_constant_zero_apply dot_S5000x30_S30x8_S5000x8_1_0_0_1_n_n none l r (ix2 p q)).trans ?_
  dot_rows dot_S5000x30_S30x8_S5000x8_1_0_0_1_n_n S5000x30 S30x8 30

/-- The scaling body at `(p, q)`. -/
theorem pay0 (x0 : Vec Ideal S5000x5 .f32) (x1 : Vec Ideal S5000x1 .f32) (p : Fin 5000) (q : Fin 5) :
    k0_pay1 (F := Ideal) x0 x1 (ix2 p q) = x0 (ix2 p q) * x1 (ix2 p (0 : Fin 1)) := by
  unfold k0_pay1
  refine (mulf_apply _ _ _).trans ?_
  exact congrArg (x0 (ix2 p q) * ·)
    ((Cert.Columns.broadcastTo_a1_ab_apply _ _ p q).trans (congrFun (shapeCast_self x1 _) _))

/-- The first projection body at `(p, q)`. -/
theorem pay1 (x0 : Vec Ideal S5000x5 .f32) (x1 : Vec Ideal S5x30 .f32) (x2 : Vec Ideal S5000x1 .f32)
    (x3 : Vec Ideal S1x30 .f32) (p : Fin 5000) (q : Fin 30) :
    k1_pay1 (F := Ideal) x0 x1 x2 x3 (ix2 p q)
      = max ((∑ k : Fin 5, x0 (ix2 p k) * x1 (ix2 k q)) * x2 (ix2 p (0 : Fin 1)) + x3 (ix2 (0 : Fin 1) q)) 0 := by
  unfold k1_pay1
  refine (maximumf_apply _ _ _).trans ?_
  refine congrArg₂ max ?_ Ideal.ofBits_zero_f32
  refine (addf_apply _ _ _).trans ?_
  refine congrArg₂ (· + ·) ?_ ?_
  · refine (mulf_apply _ _ _).trans ?_
    refine congrArg₂ (· * ·) ?_ ?_
    · refine (mm1 _ _ p q).trans ?_
      exact Finset.sum_congr rfl fun k _ => congrArg (· * x1 (ix2 k q)) (congrFun (shapeCast_self x0 _) _)
    · exact (Cert.Columns.broadcastTo_a1_ab_apply _ _ p q).trans (congrFun (shapeCast_self x2 _) _)
  · exact (broadcastTo_1b_ab_apply _ _ p q).trans (congrFun (shapeCast_self x3 _) _)

/-- The second projection body at `(p, q)`. -/
theorem pay2 (x0 : Vec Ideal S5000x30 .f32) (x1 : Vec Ideal S30x8 .f32) (x2 : Vec Ideal S5000x1 .f32)
    (p : Fin 5000) (q : Fin 8) :
    k2_pay1 (F := Ideal) x0 x1 x2 (ix2 p q)
      = (∑ k : Fin 30, x0 (ix2 p k) * x1 (ix2 k q)) * x2 (ix2 p (0 : Fin 1)) := by
  unfold k2_pay1
  refine (mulf_apply _ _ _).trans ?_
  refine congrArg₂ (· * ·) ?_ ?_
  · refine (mm2 _ _ p q).trans ?_
    exact Finset.sum_congr rfl fun k _ => congrArg (· * x1 (ix2 k q)) (congrFun (shapeCast_self x0 _) _)
  · exact (Cert.Columns.broadcastTo_a1_ab_apply _ _ p q).trans (congrFun (shapeCast_self x2 _) _)

/-- The scale-and-bias body at `(p, q)`. -/
theorem pay3 (x0 : Vec Ideal S5000x8 .f32) (x1 : Vec Ideal S5000x1 .f32) (x2 : Vec Ideal S1x8 .f32)
    (p : Fin 5000) (q : Fin 8) :
    k3_pay1 (F := Ideal) x0 x1 x2 (ix2 p q)
      = x0 (ix2 p q) * x1 (ix2 p (0 : Fin 1)) + x2 (ix2 (0 : Fin 1) q) := by
  unfold k3_pay1
  refine (addf_apply _ _ _).trans ?_
  refine congrArg₂ (· + ·) ?_ ?_
  · refine (mulf_apply _ _ _).trans ?_
    refine congrArg₂ (· * ·) (congrFun (shapeCast_self x0 _) _) ?_
    exact (Cert.Columns.broadcastTo_a1_ab_apply _ _ p q).trans (congrFun (shapeCast_self x1 _) _)
  · exact (broadcastTo_1b_ab_apply _ _ p q).trans (congrFun (shapeCast_self x2 _) _)

end Cert.KernelIdeal.Pay

end
-- ==== Proof.Reg0.lean ====
/-
  The scaling region as one function of its two input arrays.

  The region runs its body at twenty grid points; point `t` reads rows `5000·t … 5000·t + 4999` of the node features
  `X : [100000, 5]` and of the scale column `D : [100000, 1]`, and writes the same rows of the output. Every row of the
  output lies in exactly one point's block, so after the region the output array is, entry by entry,
      out(r, q) = X(r, q) · D(r, 0).
-/
import proofs.«111428_j16561393893563_2_alg».proof.Proof.Gen.KernelIdeal.Frame
import proofs.«111428_j16561393893563_2_alg».proof.Proof.Pay
import Idealize.ShloMosaic.Lib.Pipeline.Value
import Idealize.ShloMosaic.Lib.ValueIdx

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.ShloMosaic.Pipeline (Dat Cfg Window)
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The output array as a function of the input arrays: each entry of `X` times its row's scale. -/
def G (X : S100000x5.Idx → EReal) (D : S100000x1.Idx → EReal) : S100000x5.Idx → EReal :=
  fun i => X i * D (ix2 (⟨(i 0).val, idx2_lt0 i⟩ : Fin 100000) (0 : Fin 1))

/-- Point `t`'s blocks start at row block `t` and column block `0`, in every window. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem lt20 (t : Fin cfg0.N) : t.val < 20 := lt_of_lt_of_eq t.isLt N_0

/-- Row `p` of point `t`'s block is row `5000·t + p` of the array. -/
abbrev row (t : Fin cfg0.N) (p : Fin 5000) : Fin 100000 := ⟨t.val * 5000 + p.val, by have := lt20 t; have := p.isLt; omega⟩

/-- The feature block at point `t`, read at `(p, q)`. -/
theorem rd0 (c : Dev nD) (t : Fin cfg0.N) (p : Fin 5000) (q : Fin 5) :
    iblk0 V c 0 t (ix2 p q) = V c main_arg0 (ix2 (row t p) q) := by
  obtain ⟨e0, e1, -⟩ := idx t
  show V c main_arg0 (((cfg0.win 0).blk t).view.emb (ix2 p q)) = V c main_arg0 _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 5 + 1 * q.val = q.val; omega

/-- The scale block at point `t`, read at `(p, 0)`. -/
theorem rd1 (c : Dev nD) (t : Fin cfg0.N) (p : Fin 5000) (u : Fin 1) :
    iblk0 V c 1 t (ix2 p u) = V c main_v16 (ix2 (row t p) u) := by
  obtain ⟨-, -, e2, e3, -⟩ := idx t
  show V c main_v16 (((cfg0.win 1).blk t).view.emb (ix2 p u)) = V c main_v16 _
  refine congrArg (V c main_v16) (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * u.val = u.val; omega

/-- Where entry `(p, q)` of point `t`'s output block lies in the output array. -/
theorem emb2 (t : Fin cfg0.N) (p : Fin 5000) (q : Fin 5) :
    ((cfg0.win 2).blk t).view.emb (ix2 p q) = ix2 (row t p) q := by
  obtain ⟨-, -, -, -, e4, e5⟩ := idx t
  refine funext fun a => Fin.ext ?_
  match a with
  | ⟨0, _⟩ => show win0_2.index t (0 : Fin 2) * 5000 + 1 * p.val = t.val * 5000 + p.val; omega
  | ⟨1, _⟩ => show win0_2.index t (1 : Fin 2) * 5 + 1 * q.val = q.val; omega

/-- What point `t` writes back is block `t` of `G` of the arrays as the region finds them. -/
theorem flushed (c : Dev nD) (t : Fin cfg0.N) :
    (dat0 V c).flushed 2 t = ((cfg0.win 2).blk t).view.read (Elt Ideal) (G (V c main_arg0) (V c main_v16)) := by
  show (cfg0.win 2).cut (grid0.coords t) ((dat0 V c).after 2 t) = _
  rw [after0_2]
  unfold out0_2
  rw [View.canon_unit_zero hz]
  simp only [View.ld_unit_zero (S := S5000x5) hz, View.ld_unit_zero (S := S5000x1) hz]
  funext j
  obtain ⟨p, q, rfl⟩ : ∃ (p : Fin 5000) (q : Fin 5), j = ix2 p q := ⟨j 0, j 1, eq_ix2 j⟩
  refine (Pay.pay0 (iblk0 V c 0 t) (iblk0 V c 1 t) p q).trans ?_
  rw [rd0 V c t p q, rd1 V c t p 0]
  show _ = G (V c main_arg0) (V c main_v16) (((cfg0.win 2).blk t).view.emb (ix2 p q))
  rw [emb2 t p q]
  rfl

/-- An index of the output array is in point `t`'s block iff each coordinate is in the block's range. -/
theorem mem_blk (t : Fin cfg0.N) (i : S100000x5.Idx) :
    i ∈ ((cfg0.win 2).blk t).view.set ↔ ∀ a : Fin 2, win0_2.index t a * S5000x5.size a ≤ (i a).val
      ∧ (i a).val < win0_2.index t a * S5000x5.size a + S5000x5.size a := by
  show i ∈ ((View.whole main_v17).slice (win0_2.rect t)).set ↔ _
  rw [View.set_slice_whole, Rect.mem_set_unit]
  exact Iff.rfl

/-- Every index of the output array is in the block of the point its row falls in. -/
theorem cover (i : S100000x5.Idx) :
    ∃ t : Fin cfg0.N, (cfg0.win 2).flush t = true ∧ i ∈ ((cfg0.win 2).blk t).view.set := by
  have hi0 : (i 0).val < 100000 := (i 0).isLt
  have hi1 : (i 1).val < 5 := (i 1).isLt
  have hN : cfg0.N = 20 := N_0
  refine ⟨⟨(i 0).val / 5000, by rw [hN]; omega⟩, flush0_2 _, ?_⟩
  rw [mem_blk]
  obtain ⟨-, -, -, -, e4, e5⟩ := idx ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 5 ≤ (i 1).val ∧ (i 1).val < win0_2.index _ (1 : Fin 2) * 5 + 5
    rw [e5]; omega

/-- THE OUTPUT ARRAY after the region: `G` of the input arrays as the region finds them. -/
theorem final (c : Dev nD) : (dat0 V c).arrAt 2 cfg0.N = G (V c main_arg0) (V c main_v16) :=
  (dat0 V c).arrAt_eq_of_cover 2 (G (V c main_arg0) (V c main_v16)) (fun t _ => flushed V c t) cover

end Cert.KernelIdeal.Reg0

end
-- ==== Proof.Reg1.lean ====
/-
  The first projection region as one function of its four input arrays.

  The region runs its body at twenty grid points; point `t` reads rows `5000·t … 5000·t + 4999` of the aggregated
  features `A : [100000, 5]` and of the scale column `D : [100000, 1]`, the whole weight matrix `W : [5, 30]` and the
  whole bias row `B : [1, 30]`, and writes the same rows of the output. Every row of the output lies in exactly one
  point's block, so after the region the output array is, entry by entry,
      out(r, q) = max((∑ₖ A(r, k) · W(k, q)) · D(r, 0) + B(0, q), 0).
-/
import proofs.«111428_j16561393893563_2_alg».proof.Proof.Gen.KernelIdeal.Frame
import proofs.«111428_j16561393893563_2_alg».proof.Proof.Pay
import Idealize.ShloMosaic.Lib.Pipeline.Value
import Idealize.ShloMosaic.Lib.ValueIdx

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.ShloMosaic.Pipeline (Dat Cfg Window)
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The output array as a function of the input arrays. -/
def G (A : S100000x5.Idx → EReal) (W : S5x30.Idx → EReal) (D : S100000x1.Idx → EReal) (B : S1x30.Idx → EReal) :
    S100000x30.Idx → EReal :=
  fun i => max ((∑ k : Fin 5, A (ix2 (⟨(i 0).val, idx2_lt0 i⟩ : Fin 100000) k) * W (ix2 k (⟨(i 1).val, idx2_lt1 i⟩ : Fin 30)))
      * D (ix2 (⟨(i 0).val, idx2_lt0 i⟩ : Fin 100000) (0 : Fin 1))
    + B (ix2 (0 : Fin 1) (⟨(i 1).val, idx2_lt1 i⟩ : Fin 30))) 0

/-- Point `t`'s row-tiled blocks start at row block `t`; the whole-array windows stay at block `(0, 0)`. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt20 (t : Fin cfg1.N) : t.val < 20 := lt_of_lt_of_eq t.isLt N_1

/-- Row `p` of point `t`'s block is row `5000·t + p` of the array. -/
abbrev row (t : Fin cfg1.N) (p : Fin 5000) : Fin 100000 := ⟨t.val * 5000 + p.val, by have := lt20 t; have := p.isLt; omega⟩

theorem rd0 (c : Dev nD) (t : Fin cfg1.N) (p : Fin 5000) (q : Fin 5) :
    iblk1 V c 0 t (ix2 p q) = V c main_v27 (ix2 (row t p) q) := by
  obtain ⟨e0, e1, -⟩ := idx t
  show V c main_v27 (((cfg1.win 0).blk t).view.emb (ix2 p q)) = V c main_v27 _
  refine congrArg (V c main_v27) (funext fun a => Fin.ext ?_)
  match a with
  | ⟨0, _⟩ => show win1_0.index t (0 : Fin 2) * 5000 + 1 * p.val = t.val * 5000 + p.val; omega
  | ⟨1, _⟩ => show win1_0.index t (1 : Fin 2) * 5 + 1 * q.val = q.val; omega

theorem rd1 (c : Dev nD) (t : Fin cfg1.N) (k : Fin 5) (q : Fin 30) :
    iblk1 V c 1 t (ix2 k q) = V c main_arg3 (ix2 k q) := by
  obtain ⟨-, -, e2, e3, -⟩ := idx t
  show V c main_arg3 (((cfg1.win 1).blk t).view.emb (ix2 k q)) = V c main_arg3 _
  refine congrArg (V c main_arg3) (funext fun a => Fin.ext ?_)
  match a with
  | ⟨0, _⟩ => show win1_1.index t (0 : Fin 2) * 5 + 1 * k.val = k.val; omega
  | ⟨1, _⟩ => show win1_1.index t (1 : Fin 2) * 30 + 1 * q.val = q.val; omega

theorem rd2 (c : Dev nD) (t : Fin cfg1.N) (p : Fin 5000) (u : Fin 1) :
    iblk1 V c 2 t (ix2 p u) = V c main_v28 (ix2 (row t p) u) := by
  obtain ⟨-, -, -, -, e4, e5, -⟩ := idx t
  show V c main_v28 (((cfg1.win 2).blk t).view.emb (ix2 p u)) = V c main_v28 _
  refine congrArg (V c main_v28) (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * u.val = u.val; omega

theorem rd3 (c : Dev nD) (t : Fin cfg1.N) (u : Fin 1) (q : Fin 30) :
    iblk1 V c 3 t (ix2 u q) = V c main_v29 (ix2 u q) := by
  obtain ⟨-, -, -, -, -, -, e6, e7, -⟩ := idx t
  show V c main_v29 (((cfg1.win 3).blk t).view.emb (ix2 u q)) = V c main_v29 _
  refine congrArg (V c main_v29) (funext fun a => Fin.ext ?_)
  match a with
  | ⟨0, _⟩ => show win1_3.index t (0 : Fin 2) * 1 + 1 * u.val = u.val; omega
  | ⟨1, _⟩ => show win1_3.index t (1 : Fin 2) * 30 + 1 * q.val = q.val; omega

theorem emb4 (t : Fin cfg1.N) (p : Fin 5000) (q : Fin 30) :
    ((cfg1.win 4).blk t).view.emb (ix2 p q) = ix2 (row t p) q := by
  obtain ⟨-, -, -, -, -, -, -, -, e8, e9⟩ := idx t
  refine funext fun a => Fin.ext ?_
  match a with
  | ⟨0, _⟩ => show win1_4.index t (0 : Fin 2) * 5000 + 1 * p.val = t.val * 5000 + p.val; omega
  | ⟨1, _⟩ => show win1_4.index t (1 : Fin 2) * 30 + 1 * q.val = q.val; omega

/-- What point `t` writes back is block `t` of `G` of the arrays as the region finds them. -/
theorem flushed (c : Dev nD) (t : Fin cfg1.N) :
    (dat1 V c).flushed 4 t = ((cfg1.win 4).blk t).view.read (Elt Ideal)
      (G (V c main_v27) (V c main_arg3) (V c main_v28) (V c main_v29)) := by
  show (cfg1.win 4).cut (grid1.coords t) ((dat1 V c).after 4 t) = _
  rw [after1_4]
  unfold out1_4
  rw [View.canon_unit_zero hz]
  simp only [View.ld_unit_zero (S := S5000x5) hz, View.ld_unit_zero (S := S5x30) hz, View.ld_unit_zero (S := S5000x1) hz,
    View.ld_unit_zero (S := S1x30) hz]
  funext j
  obtain ⟨p, q, rfl⟩ : ∃ (p : Fin 5000) (q : Fin 30), j = ix2 p q := ⟨j 0, j 1, eq_ix2 j⟩
  refine (Pay.pay1 (iblk1 V c 0 t) (iblk1 V c 1 t) (iblk1 V c 2 t) (iblk1 V c 3 t) p q).trans ?_
  rw [rd2 V c t p 0, rd3 V c t 0 q]
  simp only [rd0 V c t p, rd1 V c t]
  show _ = G (V c main_v27) (V c main_arg3) (V c main_v28) (V c main_v29) (((cfg1.win 4).blk t).view.emb (ix2 p q))
  rw [emb4 t p q]
  rfl

theorem mem_blk (t : Fin cfg1.N) (i : S100000x30.Idx) :
    i ∈ ((cfg1.win 4).blk t).view.set ↔ ∀ a : Fin 2, win1_4.index t a * S5000x30.size a ≤ (i a).val
      ∧ (i a).val < win1_4.index t a * S5000x30.size a + S5000x30.size a := by
  show i ∈ ((View.whole main_v30).slice (win1_4.rect t)).set ↔ _
  rw [View.set_slice_whole, Rect.mem_set_unit]
  exact Iff.rfl

theorem cover (i : S100000x30.Idx) :
    ∃ t : Fin cfg1.N, (cfg1.win 4).flush t = true ∧ i ∈ ((cfg1.win 4).blk t).view.set := by
  have hi0 : (i 0).val < 100000 := (i 0).isLt
  have hi1 : (i 1).val < 30 := (i 1).isLt
  have hN : cfg1.N = 20 := N_1
  refine ⟨⟨(i 0).val / 5000, by rw [hN]; omega⟩, flush1_4 _, ?_⟩
  rw [mem_blk]
  obtain ⟨-, -, -, -, -, -, -, -, e8, e9⟩ := idx ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e8]; show (i 0).val / 5000 * 5000 ≤ (i 0).val ∧ (i 0).val < (i 0).val / 5000 * 5000 + 5000; omega
  | ⟨1, _⟩ =>
    show win1_4.index _ (1 : Fin 2) * 30 ≤ (i 1).val ∧ (i 1).val < win1_4.index _ (1 : Fin 2) * 30 + 30
    rw [e9]; omega

/-- THE OUTPUT ARRAY after the region: `G` of the input arrays as the region finds them. -/
theorem final (c : Dev nD) :
    (dat1 V c).arrAt 4 cfg1.N = G (V c main_v27) (V c main_arg3) (V c main_v28) (V c main_v29) :=
  (dat1 V c).arrAt_eq_of_cover 4 (G (V c main_v27) (V c main_arg3) (V c main_v28) (V c main_v29))
    (fun t _ => flushed V c t) cover

end Cert.KernelIdeal.Reg1

end
-- ==== Proof.Reg2.lean ====
/-
  The second projection region as one function of its three input arrays.

  The region runs its body at twenty grid points; point `t` reads rows `5000·t … 5000·t + 4999` of the hidden features
  `H : [100000, 30]` and of the scale column `D : [100000, 1]` and the whole weight matrix `W : [30, 8]`, and writes the
  same rows of the output. Every row of the output lies in exactly one point's block, so after the region the output
  array is, entry by entry,
      out(r, q) = (∑ₖ H(r, k) · W(k, q)) · D(r, 0).
-/
import proofs.«111428_j16561393893563_2_alg».proof.Proof.Gen.KernelIdeal.Frame
import proofs.«111428_j16561393893563_2_alg».proof.Proof.Pay
import Idealize.ShloMosaic.Lib.Pipeline.Value
import Idealize.ShloMosaic.Lib.ValueIdx

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.ShloMosaic.Pipeline (Dat Cfg Window)
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The output array as a function of the input arrays. -/
def G (H : S100000x30.Idx → EReal) (W : S30x8.Idx → EReal) (D : S100000x1.Idx → EReal) : S100000x8.Idx → EReal :=
  fun i => (∑ k : Fin 30, H (ix2 (⟨(i 0).val, idx2_lt0 i⟩ : Fin 100000) k) * W (ix2 k (⟨(i 1).val, idx2_lt1 i⟩ : Fin 8)))
      * D (ix2 (⟨(i 0).val, idx2_lt0 i⟩ : Fin 100000) (0 : Fin 1))

/-- Point `t`'s row-tiled blocks start at row block `t`; the whole-array window stays at block `(0, 0)`. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem lt20 (t : Fin cfg2.N) : t.val < 20 := lt_of_lt_of_eq t.isLt N_2

/-- Row `p` of point `t`'s block is row `5000·t + p` of the array. -/
abbrev row (t : Fin cfg2.N) (p : Fin 5000) : Fin 100000 := ⟨t.val * 5000 + p.val, by have := lt20 t; have := p.isLt; omega⟩

theorem rd0 (c : Dev nD) (t : Fin cfg2.N) (p : Fin 5000) (q : Fin 30) :
    iblk2 V c 0 t (ix2 p q) = V c main_v30 (ix2 (row t p) q) := by
  obtain ⟨e0, e1, -⟩ := idx t
  show V c main_v30 (((cfg2.win 0).blk t).view.emb (ix2 p q)) = V c main_v30 _
  refine congrArg (V c main_v30) (funext fun a => Fin.ext ?_)
  match a with
  | ⟨0, _⟩ => show win2_0.index t (0 : Fin 2) * 5000 + 1 * p.val = t.val * 5000 + p.val; omega
  | ⟨1, _⟩ => show win2_0.index t (1 : Fin 2) * 30 + 1 * q.val = q.val; omega

theorem rd1 (c : Dev nD) (t : Fin cfg2.N) (k : Fin 30) (q : Fin 8) :
    iblk2 V c 1 t (ix2 k q) = V c main_arg5 (ix2 k q) := by
  obtain ⟨-, -, e2, e3, -⟩ := idx t
  show V c main_arg5 (((cfg2.win 1).blk t).view.emb (ix2 k q)) = V c main_arg5 _
  refine congrArg (V c main_arg5) (funext fun a => Fin.ext ?_)
  match a with
  | ⟨0, _⟩ => show win2_1.index t (0 : Fin 2) * 30 + 1 * k.val = k.val; omega
  | ⟨1, _⟩ => show win2_1.index t (1 : Fin 2) * 8 + 1 * q.val = q.val; omega

theorem rd2 (c : Dev nD) (t : Fin cfg2.N) (p : Fin 5000) (u : Fin 1) :
    iblk2 V c 2 t (ix2 p u) = V c main_v31 (ix2 (row t p) u) := by
  obtain ⟨-, -, -, -, e4, e5, -⟩ := idx t
  show V c main_v31 (((cfg2.win 2).blk t).view.emb (ix2 p u)) = V c main_v31 _
  refine congrArg (V c main_v31) (funext fun a => Fin.ext ?_)
  match a with
  | ⟨0, _⟩ => show win2_2.index t (0 : Fin 2) * 5000 + 1 * p.val = t.val * 5000 + p.val; omega
  | ⟨1, _⟩ => show win2_2.index t (1 : Fin 2) * 1 + 1 * u.val = u.val; omega

theorem emb3 (t : Fin cfg2.N) (p : Fin 5000) (q : Fin 8) :
    ((cfg2.win 3).blk t).view.emb (ix2 p q) = ix2 (row t p) q := by
  obtain ⟨-, -, -, -, -, -, e6, e7⟩ := idx t
  refine funext fun a => Fin.ext ?_
  match a with
  | ⟨0, _⟩ => show win2_3.index t (0 : Fin 2) * 5000 + 1 * p.val = t.val * 5000 + p.val; omega
  | ⟨1, _⟩ => show win2_3.index t (1 : Fin 2) * 8 + 1 * q.val = q.val; omega

/-- What point `t` writes back is block `t` of `G` of the arrays as the region finds them. -/
theorem flushed (c : Dev nD) (t : Fin cfg2.N) :
    (dat2 V c).flushed 3 t = ((cfg2.win 3).blk t).view.read (Elt Ideal)
      (G (V c main_v30) (V c main_arg5) (V c main_v31)) := by
  show (cfg2.win 3).cut (grid2.coords t) ((dat2 V c).after 3 t) = _
  rw [after2_3]
  unfold out2_3
  rw [View.canon_unit_zero hz]
  simp only [View.ld_unit_zero (S := S5000x30) hz, View.ld_unit_zero (S := S30x8) hz, View.ld_unit_zero (S := S5000x1) hz]
  funext j
  obtain ⟨p, q, rfl⟩ : ∃ (p : Fin 5000) (q : Fin 8), j = ix2 p q := ⟨j 0, j 1, eq_ix2 j⟩
  refine (Pay.pay2 (iblk2 V c 0 t) (iblk2 V c 1 t) (iblk2 V c 2 t) p q).trans ?_
  rw [rd2 V c t p 0]
  simp only [rd0 V c t p, rd1 V c t]
  show _ = G (V c main_v30) (V c main_arg5) (V c main_v31) (((cfg2.win 3).blk t).view.emb (ix2 p q))
  rw [emb3 t p q]
  rfl

theorem mem_blk (t : Fin cfg2.N) (i : S100000x8.Idx) :
    i ∈ ((cfg2.win 3).blk t).view.set ↔ ∀ a : Fin 2, win2_3.index t a * S5000x8.size a ≤ (i a).val
      ∧ (i a).val < win2_3.index t a * S5000x8.size a + S5000x8.size a := by
  show i ∈ ((View.whole main_v32).slice (win2_3.rect t)).set ↔ _
  rw [View.set_slice_whole, Rect.mem_set_unit]
  exact Iff.rfl

theorem cover (i : S100000x8.Idx) :
    ∃ t : Fin cfg2.N, (cfg2.win 3).flush t = true ∧ i ∈ ((cfg2.win 3).blk t).view.set := by
  have hi0 : (i 0).val < 100000 := (i 0).isLt
  have hi1 : (i 1).val < 8 := (i 1).isLt
  have hN : cfg2.N = 20 := N_2
  refine ⟨⟨(i 0).val / 5000, by rw [hN]; omega⟩, flush2_3 _, ?_⟩
  rw [mem_blk]
  obtain ⟨-, -, -, -, -, -, e6, e7⟩ := idx ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e6]; show (i 0).val / 5000 * 5000 ≤ (i 0).val ∧ (i 0).val < (i 0).val / 5000 * 5000 + 5000; omega
  | ⟨1, _⟩ =>
    show win2_3.index _ (1 : Fin 2) * 8 ≤ (i 1).val ∧ (i 1).val < win2_3.index _ (1 : Fin 2) * 8 + 8
    rw [e7]; omega

/-- THE OUTPUT ARRAY after the region: `G` of the input arrays as the region finds them. -/
theorem final (c : Dev nD) : (dat2 V c).arrAt 3 cfg2.N = G (V c main_v30) (V c main_arg5) (V c main_v31) :=
  (dat2 V c).arrAt_eq_of_cover 3 (G (V c main_v30) (V c main_arg5) (V c main_v31)) (fun t _ => flushed V c t) cover

end Cert.KernelIdeal.Reg2

end
-- ==== Proof.Reg3.lean ====
/-
  The scale-and-bias region as one function of its three input arrays.

  The region runs its body at twenty grid points; point `t` reads rows `5000·t … 5000·t + 4999` of the aggregated
  features `A : [100000, 8]` and of the scale column `D : [100000, 1]` and the whole bias row `B : [1, 8]`, and writes the
  same rows of the output. Every row of the output lies in exactly one point's block, so after the region the output
  array is, entry by entry,
      out(r, q) = A(r, q) · D(r, 0) + B(0, q).
-/
import proofs.«111428_j16561393893563_2_alg».proof.Proof.Gen.KernelIdeal.Frame
import proofs.«111428_j16561393893563_2_alg».proof.Proof.Pay
import Idealize.ShloMosaic.Lib.Pipeline.Value
import Idealize.ShloMosaic.Lib.ValueIdx

set_option maxRecDepth 16384

noncomputable section

namespace Cert.KernelIdeal.Reg3

open Cert.KernelIdeal Cert.KernelIdeal.Gen Idealize.ShloMosaic Idealize.ShloMosaic.TcCoe Idealize.ShloMosaic.ValueIdx
open Idealize.ShloMosaic.Pipeline (Dat Cfg Window)
open Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The output array as a function of the input arrays. -/
def G (A : S100000x8.Idx → EReal) (D : S100000x1.Idx → EReal) (B : S1x8.Idx → EReal) : S100000x8.Idx → EReal :=
  fun i => A i * D (ix2 (⟨(i 0).val, idx2_lt0 i⟩ : Fin 100000) (0 : Fin 1))
    + B (ix2 (0 : Fin 1) (⟨(i 1).val, idx2_lt1 i⟩ : Fin 8))

/-- Point `t`'s row-tiled blocks start at row block `t`; the whole-array window stays at block `(0, 0)`. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt20 (t : Fin cfg3.N) : t.val < 20 := lt_of_lt_of_eq t.isLt N_3

/-- Row `p` of point `t`'s block is row `5000·t + p` of the array. -/
abbrev row (t : Fin cfg3.N) (p : Fin 5000) : Fin 100000 := ⟨t.val * 5000 + p.val, by have := lt20 t; have := p.isLt; omega⟩

theorem rd0 (c : Dev nD) (t : Fin cfg3.N) (p : Fin 5000) (q : Fin 8) :
    iblk3 V c 0 t (ix2 p q) = V c main_v42 (ix2 (row t p) q) := by
  obtain ⟨e0, e1, -⟩ := idx t
  show V c main_v42 (((cfg3.win 0).blk t).view.emb (ix2 p q)) = V c main_v42 _
  refine congrArg (V c main_v42) (funext fun a => Fin.ext ?_)
  match a with
  | ⟨0, _⟩ => show win3_0.index t (0 : Fin 2) * 5000 + 1 * p.val = t.val * 5000 + p.val; omega
  | ⟨1, _⟩ => show win3_0.index t (1 : Fin 2) * 8 + 1 * q.val = q.val; omega

theorem rd1 (c : Dev nD) (t : Fin cfg3.N) (p : Fin 5000) (u : Fin 1) :
    iblk3 V c 1 t (ix2 p u) = V c main_v43 (ix2 (row t p) u) := by
  obtain ⟨-, -, e2, e3, -⟩ := idx t
  show V c main_v43 (((cfg3.win 1).blk t).view.emb (ix2 p u)) = V c main_v43 _
  refine congrArg (V c main_v43) (funext fun a => Fin.ext ?_)
  match a with
  | ⟨0, _⟩ => show win3_1.index t (0 : Fin 2) * 5000 + 1 * p.val = t.val * 5000 + p.val; omega
  | ⟨1, _⟩ => show win3_1.index t (1 : Fin 2) * 1 + 1 * u.val = u.val; omega

theorem rd2 (c : Dev nD) (t : Fin cfg3.N) (u : Fin 1) (q : Fin 8) :
    iblk3 V c 2 t (ix2 u q) = V c main_v44 (ix2 u q) := by
  obtain ⟨-, -, -, -, e4, e5, -⟩ := idx t
  show V c main_v44 (((cfg3.win 2).blk t).view.emb (ix2 u q)) = V c main_v44 _
  refine congrArg (V c main_v44) (funext fun a => Fin.ext ?_)
  match a with
  | ⟨0, _⟩ => show win3_2.index t (0 : Fin 2) * 1 + 1 * u.val = u.val; omega
  | ⟨1, _⟩ => show win3_2.index t (1 : Fin 2) * 8 + 1 * q.val = q.val; omega

theorem emb3 (t : Fin cfg3.N) (p : Fin 5000) (q : Fin 8) :
    ((cfg3.win 3).blk t).view.emb (ix2 p q) = ix2 (row t p) q := by
  obtain ⟨-, -, -, -, -, -, e6, e7⟩ := idx t
  refine funext fun a => Fin.ext ?_
  match a with
  | ⟨0, _⟩ => show win3_3.index t (0 : Fin 2) * 5000 + 1 * p.val = t.val * 5000 + p.val; omega
  | ⟨1, _⟩ => show win3_3.index t (1 : Fin 2) * 8 + 1 * q.val = q.val; omega

/-- What point `t` writes back is block `t` of `G` of the arrays as the region finds them. -/
theorem flushed (c : Dev nD) (t : Fin cfg3.N) :
    (dat3 V c).flushed 3 t = ((cfg3.win 3).blk t).view.read (Elt Ideal)
      (G (V c main_v42) (V c main_v43) (V c main_v44)) := by
  show (cfg3.win 3).cut (grid3.coords t) ((dat3 V c).after 3 t) = _
  rw [after3_3]
  unfold out3_3
  rw [View.canon_unit_zero hz]
  simp only [View.ld_unit_zero (S := S5000x8) hz, View.ld_unit_zero (S := S5000x1) hz, View.ld_unit_zero (S := S1x8) hz]
  funext j
  obtain ⟨p, q, rfl⟩ : ∃ (p : Fin 5000) (q : Fin 8), j = ix2 p q := ⟨j 0, j 1, eq_ix2 j⟩
  refine (Pay.pay3 (iblk3 V c 0 t) (iblk3 V c 1 t) (iblk3 V c 2 t) p q).trans ?_
  rw [rd0 V c t p q, rd1 V c t p 0, rd2 V c t 0 q]
  show _ = G (V c main_v42) (V c main_v43) (V c main_v44) (((cfg3.win 3).blk t).view.emb (ix2 p q))
  rw [emb3 t p q]
  rfl

theorem mem_blk (t : Fin cfg3.N) (i : S100000x8.Idx) :
    i ∈ ((cfg3.win 3).blk t).view.set ↔ ∀ a : Fin 2, win3_3.index t a * S5000x8.size a ≤ (i a).val
      ∧ (i a).val < win3_3.index t a * S5000x8.size a + S5000x8.size a := by
  show i ∈ ((View.whole main_v45).slice (win3_3.rect t)).set ↔ _
  rw [View.set_slice_whole, Rect.mem_set_unit]
  exact Iff.rfl

theorem cover (i : S100000x8.Idx) :
    ∃ t : Fin cfg3.N, (cfg3.win 3).flush t = true ∧ i ∈ ((cfg3.win 3).blk t).view.set := by
  have hi0 : (i 0).val < 100000 := (i 0).isLt
  have hi1 : (i 1).val < 8 := (i 1).isLt
  have hN : cfg3.N = 20 := N_3
  refine ⟨⟨(i 0).val / 5000, by rw [hN]; omega⟩, flush3_3 _, ?_⟩
  rw [mem_blk]
  obtain ⟨-, -, -, -, -, -, e6, e7⟩ := idx ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e6]; show (i 0).val / 5000 * 5000 ≤ (i 0).val ∧ (i 0).val < (i 0).val / 5000 * 5000 + 5000; omega
  | ⟨1, _⟩ =>
    show win3_3.index _ (1 : Fin 2) * 8 ≤ (i 1).val ∧ (i 1).val < win3_3.index _ (1 : Fin 2) * 8 + 8
    rw [e7]; omega

/-- THE OUTPUT ARRAY after the region: `G` of the input arrays as the region finds them. -/
theorem final (c : Dev nD) : (dat3 V c).arrAt 3 cfg3.N = G (V c main_v42) (V c main_v43) (V c main_v44) :=
  (dat3 V c).arrAt_eq_of_cover 3 (G (V c main_v42) (V c main_v43) (V c main_v44)) (fun t _ => flushed V c t) cover

end Cert.KernelIdeal.Reg3

end
-- ==== Proof.KHost.lean ====
/-
  The idealized kernel program's buffers at the boundaries between its segments.

  The program is a chain: host operations, the scaling region, host operations (gather the scaled features along the
  edges' source nodes, add them up at the edges' target nodes), the first projection region, one host operation, the
  second projection region, host operations (the same gather and sum on the projected features), the scale-and-bias
  region, and the host operations of the pooling tail. Each stretch of host operations is a pure function of the
  buffers it reads; each region leaves in its output array the function of its input arrays found in the region
  modules; and a buffer that a segment does not write comes out of it as it went in.
-/
import proofs.«111428_j16561393893563_2_alg».proof.Proof.Gen.KernelIdeal.Frame
import proofs.«111428_j16561393893563_2_alg».proof.Proof.Reg0
import proofs.«111428_j16561393893563_2_alg».proof.Proof.Reg1
import proofs.«111428_j16561393893563_2_alg».proof.Proof.Reg2
import proofs.«111428_j16561393893563_2_alg».proof.Proof.Reg3
import Idealize.ShloMosaic.Lib.StableHlo.Run

set_option maxRecDepth 16384

noncomputable section

namespace Cert.KernelIdeal.HostT

open Cert.KernelIdeal Cert.KernelIdeal.Gen Idealize.ShloMosaic Idealize.ShloMosaic.TcCoe Idealize.ShloMosaic.StableHlo
open Idealize.SL.Sem

/-! ## The pure terms -/

/-- The edges' source nodes: row 0 of the edge list, then one self-loop per node. -/
def src (ei : S2x3200000.Idx → BitVec 32) : S3300000.Idx → BitVec 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0

/-- The edges' target nodes: row 1 of the edge list, then one self-loop per node. -/
def dst (ei : S2x3200000.Idx → BitVec 32) : S3300000.Idx → BitVec 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- A vector of node numbers as an index column. -/
def col (v : S3300000.Idx → BitVec 32) : S3300000x1.Idx → BitVec 32 :=
  broadcastInDim S3300000x1 ![0] bcast_S3300000_S3300000x1_0 v

/-- Node numbers with the negative ones wrapped by the node count, as an index column (what a gather reads). -/
def wrapCol (v : S3300000.Idx → BitVec 32) : S3300000x1.Idx → BitVec 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- Each node's degree: the number of edges whose target it is. -/
def deg (d : S3300000.Idx → BitVec 32) : S100000.Idx → EReal :=
  Host.scatterAdd (F := Ideal) scatter_S100000_S3300000x1_S3300000_n_0_0_1
    (broadcastInDim S100000 ![] bcast_S_S100000 (constant (F := Ideal) S_ .f32 0x00000000#32)) (col d)
    (broadcastInDim S3300000 ![] bcast_S_S3300000 (constant (F := Ideal) S_ .f32 0x3F800000#32))

/-- The degree's positivity mask and its power −1/2. -/
def degPos (d : S3300000.Idx → BitVec 32) : S100000.Idx → BitVec 1 :=
  cmpf (F := Ideal) .ogt (deg d) (broadcastInDim S100000 ![] bcast_S_S100000 (constant (F := Ideal) S_ .f32 0x00000000#32))
def degPow (d : S3300000.Idx → BitVec 32) : S100000.Idx → EReal :=
  Host.powf (F := Ideal) (deg d) (broadcastInDim S100000 ![] bcast_S_S100000 (constant (F := Ideal) S_ .f32 0xBF000000#32))

/-- The per-node scale from the mask, the power and the zero it falls back to. -/
def scaleOf (p : S100000.Idx → BitVec 1) (w : S100000.Idx → EReal) (z : S_.Idx → EReal) : S100000.Idx → EReal :=
  select p w (broadcastInDim S100000 ![] bcast_S_S100000 z)

/-- The per-node scale: degree to the power −1/2 where the degree is positive, zero elsewhere. -/
def dinv (d : S3300000.Idx → BitVec 32) : S100000.Idx → EReal :=
  scaleOf (degPos d) (degPow d) (constant (F := Ideal) S_ .f32 0x00000000#32)

/-- The scale as a column. -/
def dcol (x : S100000.Idx → EReal) : S100000x1.Idx → EReal := shapeCast S100000x1 x shapeCasts_S100000_S100000x1

/-- Gather rows at the edges' wrapped source nodes and add them up at the edges' target nodes, five columns wide. -/
def agg5 (T : S100000x5.Idx → EReal) (s d : S3300000.Idx → BitVec 32) : S100000x5.Idx → EReal :=
  Host.scatterAdd (F := Ideal) scatter_S100000x5_S3300000x1_S3300000x5_1_0_0_1
    (broadcastInDim S100000x5 ![] bcast_S_S100000x5 (constant (F := Ideal) S_ .f32 0x00000000#32)) (col d)
    (Host.gather gather_S100000x5_S3300000x1_S3300000x5_1_0_n_n_0_1_15 T (wrapCol s))

/-- The same, eight columns wide. -/
def agg8 (T : S100000x8.Idx → EReal) (s d : S3300000.Idx → BitVec 32) : S100000x8.Idx → EReal :=
  Host.scatterAdd (F := Ideal) scatter_S100000x8_S3300000x1_S3300000x8_1_0_0_1
    (broadcastInDim S100000x8 ![] bcast_S_S100000x8 (constant (F := Ideal) S_ .f32 0x00000000#32)) (col d)
    (Host.gather gather_S100000x8_S3300000x1_S3300000x8_1_0_n_n_0_1_18 T (wrapCol s))

/-- The pooling tail: per-graph sums of the node outputs divided by the per-graph node counts (at least one). -/
def tail (h : S100000x8.Idx → EReal) (bt : S100000.Idx → BitVec 32) : S2048x8.Idx → EReal :=
  Host.divf (F := Ideal)
    (Host.scatterAdd (F := Ideal) scatter_S2048x8_S100000x1_S100000x8_1_0_0_1
      (broadcastInDim S2048x8 ![] bcast_S_S2048x8 (constant (F := Ideal) S_ .f32 0x00000000#32))
      (broadcastInDim S100000x1 ![0] bcast_S100000_S100000x1_0 bt) h)
    (broadcastInDim S2048x8 ![0, 1] bcast_S2048x1_S2048x8_0_1
      (broadcastInDim S2048x1 ![0] bcast_S2048_S2048x1_0
        (maximumf (F := Ideal)
          (Host.scatterAdd (F := Ideal) scatter_S2048_S100000x1_S100000_n_0_0_1
            (broadcastInDim S2048 ![] bcast_S_S2048 (constant (F := Ideal) S_ .f32 0x00000000#32))
            (broadcastInDim S100000x1 ![0] bcast_S100000_S100000x1_0 bt)
            (broadcastInDim S100000 ![] bcast_S_S100000 (constant (F := Ideal) S_ .f32 0x3F800000#32)))
          (broadcastInDim S2048 ![] bcast_S_S2048 (constant (F := Ideal) S_ .f32 0x3F800000#32)))))

/-! ## What each stretch of host operations computes, from any incoming contents -/

section Stretches
variable (Vin : Valuation τ sig (Elt Ideal))

local notation "𝐫" => Proc.devRef (τ := τ) (sig := sig) Proc.tc

theorem s0_v3 : after hostOps0 Vin (𝐫 main_v3) = src (Vin (𝐫 main_arg1)) := by
  dsimp only [hostOps0]; after_results <;> rfl
theorem s0_v6 : after hostOps0 Vin (𝐫 main_v6) = dst (Vin (𝐫 main_arg1)) := by
  dsimp only [hostOps0]; after_results <;> rfl
theorem s0_v12 : after hostOps0 Vin (𝐫 main_v12) = degPos (dst (Vin (𝐫 main_arg1))) := by
  dsimp only [hostOps0]; after_results <;> rfl
theorem s0_v14 : after hostOps0 Vin (𝐫 main_v14) = degPow (dst (Vin (𝐫 main_arg1))) := by
  dsimp only [hostOps0]; after_results <;> rfl
theorem s0_cst3 : after hostOps0 Vin (𝐫 main_cst_3) = constant (F := Ideal) S_ .f32 0x00000000#32 := by
  dsimp only [hostOps0]; after_results <;> rfl

theorem s01_v15 : after hostOps0_1 Vin (𝐫 main_v15) = scaleOf (Vin (𝐫 main_v12)) (Vin (𝐫 main_v14)) (Vin (𝐫 main_cst_3)) := by
  dsimp only [hostOps0_1, TRef.unary, TRef.ternary]; after_results <;> rfl

theorem s02_v16 : after hostOps0_2 Vin (𝐫 main_v16) = dcol (Vin (𝐫 main_v15)) := by
  dsimp only [hostOps0_2]; after_results <;> rfl

theorem s1_v27 : after hostOps1 Vin (𝐫 main_v27) = agg5 (Vin (𝐫 main_v17)) (Vin (𝐫 main_v3)) (Vin (𝐫 main_v6)) := by
  dsimp only [hostOps1]; after_results <;> rfl
theorem s1_v28 : after hostOps1 Vin (𝐫 main_v28) = dcol (Vin (𝐫 main_v15)) := by
  dsimp only [hostOps1]; after_results <;> rfl
theorem s1_v29 : after hostOps1 Vin (𝐫 main_v29) = shapeCast S1x30 (Vin (𝐫 main_arg4)) shapeCasts_S30_S1x30 := by
  dsimp only [hostOps1]; after_results <;> rfl

theorem s2_v31 : after hostOps2 Vin (𝐫 main_v31) = dcol (Vin (𝐫 main_v15)) := by
  dsimp only [hostOps2]; after_results <;> rfl

theorem s3_v42 : after hostOps3 Vin (𝐫 main_v42) = agg8 (Vin (𝐫 main_v32)) (Vin (𝐫 main_v3)) (Vin (𝐫 main_v6)) := by
  dsimp only [hostOps3]; after_results <;> rfl
theorem s3_v43 : after hostOps3 Vin (𝐫 main_v43) = dcol (Vin (𝐫 main_v15)) := by
  dsimp only [hostOps3]; after_results <;> rfl
theorem s3_v44 : after hostOps3 Vin (𝐫 main_v44) = shapeCast S1x8 (Vin (𝐫 main_arg6)) shapeCasts_S8_S1x8 := by
  dsimp only [hostOps3]; after_results <;> rfl

theorem s4_v57 : after hostOps4 Vin (𝐫 main_v57) = tail (Vin (𝐫 main_v45)) (Vin (𝐫 main_arg2)) := by
  dsimp only [hostOps4]; after_results <;> rfl

end Stretches

end Cert.KernelIdeal.HostT

end
-- ==== Proof.Spec.lean ====
import Idealize.ShloMosaic.PureOps.Ideal

/-!
# A two-layer graph convolution on the extended reals, written two ways

An edge `e` is accumulated into node `v` when `hit e v` holds; it reads from node `s e`,
and `s' e` is a second node index of the edge which equals `v` whenever `hit e v`.
A per-node scale `d` is applied either at the nodes (before and after the accumulation)
or per edge as the product `d (s e) * d (s' e)`.  When all data are finite the two
formulations agree: both are the coercion of the same real number, and in `ℝ` the
identity is distributivity plus the substitution `s' e = v` under the edge sum.
-/

noncomputable section

open scoped BigOperators

namespace Cert.Spec

/-! ## The first formulation: scale factored to the nodes -/

def xs {N : ℕ} (x : Fin N → Fin 5 → EReal) (d : Fin N → EReal)
    (u : Fin N) (k : Fin 5) : EReal :=
  x u k * d u

def agg1 {N E : ℕ} (hit : Fin E → Fin N → Prop) [∀ e v, Decidable (hit e v)]
    (s : Fin E → Fin N) (x : Fin N → Fin 5 → EReal) (d : Fin N → EReal)
    (v : Fin N) (k : Fin 5) : EReal :=
  ∑ e : Fin E, if hit e v then xs x d (s e) k else 0

def h1 {N E : ℕ} (hit : Fin E → Fin N → Prop) [∀ e v, Decidable (hit e v)]
    (s : Fin E → Fin N) (x : Fin N → Fin 5 → EReal) (W1 : Fin 5 → Fin 30 → EReal)
    (b1 : Fin 30 → EReal) (d : Fin N → EReal) (v : Fin N) (j : Fin 30) : EReal :=
  max ((∑ k : Fin 5, agg1 hit s x d v k * W1 k j) * d v + b1 j) 0

def h2s {N E : ℕ} (hit : Fin E → Fin N → Prop) [∀ e v, Decidable (hit e v)]
    (s : Fin E → Fin N) (x : Fin N → Fin 5 → EReal) (W1 : Fin 5 → Fin 30 → EReal)
    (b1 : Fin 30 → EReal) (W2 : Fin 30 → Fin 8 → EReal) (d : Fin N → EReal)
    (u : Fin N) (j : Fin 8) : EReal :=
  (∑ k : Fin 30, h1 hit s x W1 b1 d u k * W2 k j) * d u

def agg2 {N E : ℕ} (hit : Fin E → Fin N → Prop) [∀ e v, Decidable (hit e v)]
    (s : Fin E → Fin N) (x : Fin N → Fin 5 → EReal) (W1 : Fin 5 → Fin 30 → EReal)
    (b1 : Fin 30 → EReal) (W2 : Fin 30 → Fin 8 → EReal) (d : Fin N → EReal)
    (v : Fin N) (j : Fin 8) : EReal :=
  ∑ e : Fin E, if hit e v then h2s hit s x W1 b1 W2 d (s e) j else 0

def h2 {N E : ℕ} (hit : Fin E → Fin N → Prop) [∀ e v, Decidable (hit e v)]
    (s : Fin E → Fin N) (x : Fin N → Fin 5 → EReal) (W1 : Fin 5 → Fin 30 → EReal)
    (b1 : Fin 30 → EReal) (W2 : Fin 30 → Fin 8 → EReal) (b2 : Fin 8 → EReal)
    (d : Fin N → EReal) (v : Fin N) (j : Fin 8) : EReal :=
  agg2 hit s x W1 b1 W2 d v j * d v + b2 j

/-! ## The second formulation: scale per edge -/

def hw {N : ℕ} (x : Fin N → Fin 5 → EReal) (W1 : Fin 5 → Fin 30 → EReal)
    (u : Fin N) (j : Fin 30) : EReal :=
  ∑ k : Fin 5, x u k * W1 k j

def o1 {N E : ℕ} (hit : Fin E → Fin N → Prop) [∀ e v, Decidable (hit e v)]
    (s s' : Fin E → Fin N) (x : Fin N → Fin 5 → EReal) (W1 : Fin 5 → Fin 30 → EReal)
    (b1 : Fin 30 → EReal) (d : Fin N → EReal) (v : Fin N) (j : Fin 30) : EReal :=
  (∑ e : Fin E, if hit e v then hw x W1 (s e) j * (d (s e) * d (s' e)) else 0) + b1 j

def r1 {N E : ℕ} (hit : Fin E → Fin N → Prop) [∀ e v, Decidable (hit e v)]
    (s s' : Fin E → Fin N) (x : Fin N → Fin 5 → EReal) (W1 : Fin 5 → Fin 30 → EReal)
    (b1 : Fin 30 → EReal) (d : Fin N → EReal) (v : Fin N) (j : Fin 30) : EReal :=
  max (o1 hit s s' x W1 b1 d v j) 0

def hw2 {N E : ℕ} (hit : Fin E → Fin N → Prop) [∀ e v, Decidable (hit e v)]
    (s s' : Fin E → Fin N) (x : Fin N → Fin 5 → EReal) (W1 : Fin 5 → Fin 30 → EReal)
    (b1 : Fin 30 → EReal) (W2 : Fin 30 → Fin 8 → EReal) (d : Fin N → EReal)
    (u : Fin N) (j : Fin 8) : EReal :=
  ∑ k : Fin 30, r1 hit s s' x W1 b1 d u k * W2 k j

def o2 {N E : ℕ} (hit : Fin E → Fin N → Prop) [∀ e v, Decidable (hit e v)]
    (s s' : Fin E → Fin N) (x : Fin N → Fin 5 → EReal) (W1 : Fin 5 → Fin 30 → EReal)
    (b1 : Fin 30 → EReal) (W2 : Fin 30 → Fin 8 → EReal) (b2 : Fin 8 → EReal)
    (d : Fin N → EReal) (v : Fin N) (j : Fin 8) : EReal :=
  (∑ e : Fin E, if hit e v then hw2 hit s s' x W1 b1 W2 d (s e) j * (d (s e) * d (s' e))
    else 0) + b2 j

/-! ## Coercion lemmas: finite real data stay finite under the operations used -/

/-- The coercion `ℝ → EReal` commutes with finite sums. -/
theorem coe_sum {ι : Type*} (S : Finset ι) (f : ι → ℝ) :
    (∑ i ∈ S, ((f i : ℝ) : EReal)) = ((∑ i ∈ S, f i : ℝ) : EReal) := by
  classical
  induction S using Finset.induction_on with
  | empty => simp
  | insert a S ha ih =>
    rw [Finset.sum_insert ha, Finset.sum_insert ha, ih, EReal.coe_add]

/-- The coercion commutes with a conditional whose other branch is zero. -/
theorem coe_ite (p : Prop) [Decidable p] (a : ℝ) :
    (if p then ((a : ℝ) : EReal) else 0) = (((if p then a else 0) : ℝ) : EReal) := by
  split_ifs <;> simp

/-- The coercion commutes with the positive part. -/
theorem coe_max_zero (a : ℝ) : max ((a : ℝ) : EReal) 0 = ((max a 0 : ℝ) : EReal) := by
  rcases le_total a 0 with h | h
  · rw [max_eq_right h, max_eq_right (by exact_mod_cast h)]
    simp
  · rw [max_eq_left h, max_eq_left (by exact_mod_cast h)]

/-! ## The two real identities -/

/-- Second-layer shape: a node scale applied after the edge sum equals the per-edge scale,
because `s' e = v` on every edge that contributes. -/
theorem real_edge_scale {N E : ℕ} (hit : Fin E → Fin N → Prop) [∀ e v, Decidable (hit e v)]
    (s s' : Fin E → Fin N) (hs' : ∀ e v, hit e v → s' e = v)
    (g : Fin N → ℝ) (d : Fin N → ℝ) (v : Fin N) :
    (∑ e : Fin E, if hit e v then g (s e) * d (s e) else 0) * d v
      = ∑ e : Fin E, if hit e v then g (s e) * (d (s e) * d (s' e)) else 0 := by
  rw [Finset.sum_mul]
  refine Finset.sum_congr rfl fun e _ => ?_
  split_ifs with h
  · rw [hs' e v h]; ring
  · simp

/-- First-layer shape: additionally the weight contraction over `k` is exchanged with the
edge sum. -/
theorem real_contract_edge_scale {N E : ℕ} {K : Type*} [Fintype K]
    (hit : Fin E → Fin N → Prop) [∀ e v, Decidable (hit e v)]
    (s s' : Fin E → Fin N) (hs' : ∀ e v, hit e v → s' e = v)
    (f : Fin N → K → ℝ) (W : K → ℝ) (d : Fin N → ℝ) (v : Fin N) :
    (∑ k : K, (∑ e : Fin E, if hit e v then f (s e) k * d (s e) else 0) * W k) * d v
      = ∑ e : Fin E, if hit e v then (∑ k : K, f (s e) k * W k) * (d (s e) * d (s' e))
          else 0 := by
  rw [← real_edge_scale hit s s' hs' (fun u => ∑ k : K, f u k * W k) d v]
  congr 1
  simp_rw [Finset.sum_mul]
  rw [Finset.sum_comm]
  refine Finset.sum_congr rfl fun e _ => ?_
  split_ifs with h
  · refine Finset.sum_congr rfl fun k _ => ?_
    ring
  · simp

/-! ## The two formulations agree on finite data -/

/-- First layer: the node-scaled and the edge-scaled hidden activations coincide. -/
theorem h1_eq_r1 {N E : ℕ} {hit : Fin E → Fin N → Prop} [∀ e v, Decidable (hit e v)]
    {s s' : Fin E → Fin N} {x : Fin N → Fin 5 → EReal} {W1 : Fin 5 → Fin 30 → EReal}
    {b1 : Fin 30 → EReal} {d : Fin N → EReal}
    (hs' : ∀ e v, hit e v → s' e = v)
    (hx : ∀ u k, ∃ r : ℝ, x u k = (r : EReal))
    (hW1 : ∀ k j, ∃ r : ℝ, W1 k j = (r : EReal))
    (hb1 : ∀ j, ∃ r : ℝ, b1 j = (r : EReal))
    (hd : ∀ v, ∃ r : ℝ, d v = (r : EReal)) :
    h1 hit s x W1 b1 d = r1 hit s s' x W1 b1 d := by
  choose x' hx' using hx
  choose W1' hW1' using hW1
  choose b1' hb1' using hb1
  choose d' hd' using hd
  funext v j
  simp only [h1, r1, o1, agg1, xs, hw, hx', hW1', hb1', hd', ← EReal.coe_mul, coe_ite,
    coe_sum, ← EReal.coe_add]
  rw [real_contract_edge_scale hit s s' hs' x' (fun k => W1' k j) d' v]

/-- The first-layer activations are finite. -/
theorem r1_real {N E : ℕ} {hit : Fin E → Fin N → Prop} [∀ e v, Decidable (hit e v)]
    {s s' : Fin E → Fin N} {x : Fin N → Fin 5 → EReal} {W1 : Fin 5 → Fin 30 → EReal}
    {b1 : Fin 30 → EReal} {d : Fin N → EReal}
    (hx : ∀ u k, ∃ r : ℝ, x u k = (r : EReal))
    (hW1 : ∀ k j, ∃ r : ℝ, W1 k j = (r : EReal))
    (hb1 : ∀ j, ∃ r : ℝ, b1 j = (r : EReal))
    (hd : ∀ v, ∃ r : ℝ, d v = (r : EReal)) (v : Fin N) (j : Fin 30) :
    ∃ r : ℝ, r1 hit s s' x W1 b1 d v j = (r : EReal) := by
  choose x' hx' using hx
  choose W1' hW1' using hW1
  choose b1' hb1' using hb1
  choose d' hd' using hd
  refine ⟨max ((∑ e : Fin E, if hit e v then
      (∑ k : Fin 5, x' (s e) k * W1' k j) * (d' (s e) * d' (s' e)) else 0) + b1' j) 0, ?_⟩
  simp only [r1, o1, hw, hx', hW1', hb1', hd', ← EReal.coe_mul, coe_ite, coe_sum,
    ← EReal.coe_add, coe_max_zero]

/-- Both layers: the node-scaled and the edge-scaled outputs coincide. -/
theorem h2_eq_o2 {N E : ℕ} {hit : Fin E → Fin N → Prop} [∀ e v, Decidable (hit e v)]
    {s s' : Fin E → Fin N} {x : Fin N → Fin 5 → EReal} {W1 : Fin 5 → Fin 30 → EReal}
    {b1 : Fin 30 → EReal} {W2 : Fin 30 → Fin 8 → EReal} {b2 : Fin 8 → EReal}
    {d : Fin N → EReal}
    (hs' : ∀ e v, hit e v → s' e = v)
    (hx : ∀ u k, ∃ r : ℝ, x u k = (r : EReal))
    (hW1 : ∀ k j, ∃ r : ℝ, W1 k j = (r : EReal))
    (hb1 : ∀ j, ∃ r : ℝ, b1 j = (r : EReal))
    (hW2 : ∀ k j, ∃ r : ℝ, W2 k j = (r : EReal))
    (hb2 : ∀ j, ∃ r : ℝ, b2 j = (r : EReal))
    (hd : ∀ v, ∃ r : ℝ, d v = (r : EReal)) :
    h2 hit s x W1 b1 W2 b2 d = o2 hit s s' x W1 b1 W2 b2 d := by
  have h1r : h1 hit s x W1 b1 d = r1 hit s s' x W1 b1 d := h1_eq_r1 hs' hx hW1 hb1 hd
  choose a ha using fun u k => r1_real (hit := hit) (s := s) (s' := s') hx hW1 hb1 hd u k
  choose W2' hW2' using hW2
  choose b2' hb2' using hb2
  choose d' hd' using hd
  funext v j
  simp only [h2, agg2, h2s, o2, hw2, h1r, ha, hW2', hb2', hd', ← EReal.coe_mul, coe_ite,
    coe_sum, ← EReal.coe_add]
  rw [real_edge_scale hit s s' hs' (fun u => ∑ k : Fin 30, a u k * W2' k j) d' v]

end Cert.Spec
-- ==== Proof.LibGatherRows.lean ====
/-
  A gather of whole rows, read at an index.

  Taking rows of a matrix `x : [N, D]` at an integer column of row numbers `idx : [R, 1]` is a gather that collapses the
  row axis, keeps the column axis as its one offset axis (slices of one row, `D` wide) and reads each start index off
  `idx`'s second axis. Its element `(r, d)` is `x` at row `idx[r, 0]` — read as a signed integer and clamped into
  `[0, N − 1]`, as every start index of a gather is — and column `d`.
-/
import Idealize.ShloMosaic.PureOps
import Idealize.ShloMosaic.Lib.ValueIdx

namespace Cert.Lib.GatherRows

open Idealize.ShloMosaic Idealize.ShloMosaic.ValueIdx

variable {α : Type}

/-- The dimension numbers of that gather for an operand `[N, D]`, start indices `[R, 1]` and a result `[R, D]`. -/
abbrev rowsDims (N R D : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Where result index `(r, d)` reads its row number: `[r, 0]`. -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, d)`: the operand at the row `idx[r, 0]`, read signed and clamped into `[0, N − 1]`, and
    column `d`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N R D wf) x idx y
      = x (ix2 (⟨min (idx (rowsIdx y)).toInt.toNat (N - 1), by omega⟩ : Fin N) (⟨(y 1).val, idx2_lt1 y⟩ : Fin D)) := by
  unfold Host.gather
  congr 1
  funext a
  refine Fin.ext ?_
  show (rowsDims N R D wf).start y idx a + (rowsDims N R D wf).batchCoord y a + (rowsDims N R D wf).offCoord y a = _
  rw [GatherDims.batchCoord_eq_zero _ _ _ List.not_mem_nil, Nat.add_zero]
  -- the row axis: collapsed (no offset), its start the clamped row number
  have row : (rowsDims N R D wf).start y idx (0 : Fin 2) + (rowsDims N R D wf).offCoord y (0 : Fin 2)
      = min (idx (rowsIdx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N R D wf).startIndexMap from List.mem_singleton.mpr rfl)]
    have hsi : (rowsDims N R D wf).siIdx y ⟨List.idxOf (0 : Fin 2) (rowsDims N R D wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  -- the column axis: not in the start index map (start 0), the result's offset axis
  have col : (rowsDims N R D wf).start y idx (1 : Fin 2) + (rowsDims N R D wf).offCoord y (1 : Fin 2) = (y 1).val := by
    have h1 : (1 : Fin 2) ∉ ([0] : List (Fin 2)) := by decide
    have hk : (1 : Fin 2) ∈ (rowsDims N R D wf).sKept := (GatherDims.mem_sKept _ _).mpr ⟨h1, List.not_mem_nil⟩
    unfold GatherDims.start GatherDims.offCoord
    rw [dif_neg h1, dif_pos hk, Nat.zero_add]
    rfl
  match a with
  | ⟨0, _⟩ => exact row
  | ⟨1, _⟩ => exact col

end Cert.Lib.GatherRows
-- ==== Proof.EdgeIdx.lean ====
/-
  Which node an edge touches, read off an index column.

  An index column holds one 32-bit word per edge. A scatter-add accumulates edge `e` into node `v` exactly when the word,
  read as a signed integer, is `v` (a word outside the node range is dropped). A gather reads, for edge `e`, the node
  whose number is the word read as a signed integer and clamped into the node range.
-/
import Idealize.ShloMosaic.PureOps
import Idealize.ShloMosaic.Lib.ValueIdx
import proofs.«111428_j16561393893563_2_alg».proof.Proof.LibGatherRows

namespace Cert.Edge

open Idealize.ShloMosaic Idealize.ShloMosaic.ValueIdx

/-- Edge `e` is accumulated into node `v`: its word in the index column, read signed, is `v`. -/
def hit (dc : (⟨2, ![3300000, 1]⟩ : Shape).Idx → BitVec 32) (e : Fin 3300000) (v : Fin 100000) : Prop :=
  (dc (ix2 e (0 : Fin 1))).toInt = (v.val : Int)

instance (dc : (⟨2, ![3300000, 1]⟩ : Shape).Idx → BitVec 32) (e : Fin 3300000) (v : Fin 100000) : Decidable (hit dc e v) :=
  inferInstanceAs (Decidable (_ = _))

/-- The node a gather reads for edge `e`: its word in the index column, read signed and clamped into the range. -/
def node (sc : (⟨2, ![3300000, 1]⟩ : Shape).Idx → BitVec 32) (e : Fin 3300000) : Fin 100000 :=
  ⟨min (sc (ix2 e (0 : Fin 1))).toInt.toNat (100000 - 1), by omega⟩

/-- The index column entry a row gather reads for result entry `(e, k)` is `(e, 0)`. -/
theorem rowsIdx_ix2 {R D : Nat} (e : Fin R) (k : Fin D) : Cert.Lib.GatherRows.rowsIdx (ix2 e k) = ix2 e (0 : Fin 1) :=
  funext fun a => by match a with | ⟨0, _⟩ => rfl | ⟨1, _⟩ => rfl

/-- A gather of whole rows at an index column reads, at `(e, k)`, entry `k` of the row of the node the column names for
    edge `e`. -/
theorem gather_rows_node {α : Type} {D : Nat}
    (wf : GatherDims.WF ⟨2, ![100000, D]⟩ ⟨2, ![3300000, 1]⟩ ⟨2, ![3300000, D]⟩ [1] [0] [] [0] [] 1 ![1, D])
    (T : (⟨2, ![100000, D]⟩ : Shape).Idx → α) (sc : (⟨2, ![3300000, 1]⟩ : Shape).Idx → BitVec 32) (e : Fin 3300000) (k : Fin D) :
    Host.gather (Cert.Lib.GatherRows.rowsDims 100000 3300000 D wf) T sc (ix2 e k) = T (ix2 (node sc e) k) := by
  rw [Cert.Lib.GatherRows.gather_rows_apply (by decide)]
  refine congrArg T (funext fun a => Fin.ext ?_)
  match a with
  | ⟨0, _⟩ =>
    show min (sc (Cert.Lib.GatherRows.rowsIdx (ix2 e k))).toInt.toNat (100000 - 1)
      = min (sc (ix2 e (0 : Fin 1))).toInt.toNat (100000 - 1)
    rw [rowsIdx_ix2]
  | ⟨1, _⟩ => rfl

end Cert.Edge
-- ==== Proof.LibScatterRows.lean ====
/-
  A scatter-add of whole rows, read at an index.

  Adding the rows of an update matrix `upd : [R, D]` into the rows of an operand `x : [N, D]` at the row numbers held in
  an integer column `idx : [R, 1]` is a scatter whose row axis is the inserted (one-element) window axis named by the
  scatter index, and whose column axis is the one update window axis. Update element `(e, c)` lands at row `idx[e, 0]`
  — read as a signed integer and NOT clamped: an update whose row number is outside `[0, N − 1]` is dropped — and
  column `c`. So at the extended reals element `(r, c)` of the result is

      x[r, c] + ∑ over the update rows e with idx[e, 0] = r of upd[e, c].

  The rank-1 form (operand `[N]`, indices `[R, 1]`, updates `[R]`) has no window axis at all: update element `e` lands
  at position `idx[e, 0]`, and element `r` of the result is `x[r] + ∑ over e with idx[e, 0] = r of upd[e]`.
-/
import Idealize.ShloMosaic.PureOps
import Idealize.ShloMosaic.PureOps.Ideal
import Idealize.ShloMosaic.Lib.ValueIdx

namespace Cert.Lib.ScatterRows

open Idealize.ShloMosaic Idealize.ShloMosaic.ValueIdx
open scoped BigOperators

/-- WHERE AN UPDATE LANDS: update index `j` lands at operand index `i` exactly when on every operand axis the signed
    start plus the window coordinate is `i`'s coordinate (being a coordinate of `i`, that number is then in range). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hEq a
      have := h a
      rw [← hEq]
      show _ = (((d.start j idx a + (d.window j a : Int)).toNat : Nat) : Int)
      omega
    · intro hEq
      funext a
      refine Fin.ext ?_
      show (d.start j idx a + (d.window j a : Int)).toNat = (i a).val
      have := hEq a
      omega
  · rename_i h
    constructor
    · intro hEq; exact absurd hEq (by simp)
    · intro hEq
      exfalso; apply h
      intro a
      have := hEq a
      have := (i a).isLt
      omega

/-! ## Rows of a matrix -/

/-- The dimension numbers of that scatter for an operand `[N, D]`, scatter indices `[R, 1]` and updates `[R, D]`. -/
abbrev rowsDims (N R D : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

section Rows
variable {N R D w : Nat} (wf : ScatterDims.WF ⟨2, ![N, D]⟩ ⟨2, ![R, 1]⟩ ⟨2, ![R, D]⟩ [1] [0] [0] 1)

/-- The row axis is the one the scatter index names: its start is the row number `idx[e, 0]`, read signed. -/
theorem rows_start_row (idx : IVec ⟨2, ![R, 1]⟩ w) (e : Fin R) (c' : Fin D) :
    (rowsDims N R D wf).start (ix2 e c') idx (0 : Fin 2) = (idx (ix2 e (0 : Fin 1))).toInt := by
  unfold ScatterDims.start
  rw [dif_pos (show (0 : Fin 2) ∈ (rowsDims N R D wf).scatterDimsToOperandDims from List.mem_singleton.mpr rfl)]
  have hsi : (rowsDims N R D wf).siIdx (ix2 e c') ⟨List.idxOf (0 : Fin 2) (rowsDims N R D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the scatter index: its start is `0`. -/
theorem rows_start_col (idx : IVec ⟨2, ![R, 1]⟩ w) (j : (⟨2, ![R, D]⟩ : Shape).Idx) :
    (rowsDims N R D wf).start j idx (1 : Fin 2) = 0 := by
  unfold ScatterDims.start
  rw [dif_neg (show (1 : Fin 2) ∉ ([0] : List (Fin 2)) by decide)]

/-- The row axis is an inserted window axis: no window coordinate. -/
theorem rows_window_row (j : (⟨2, ![R, D]⟩ : Shape).Idx) : (rowsDims N R D wf).window j (0 : Fin 2) = 0 := by
  unfold ScatterDims.window
  have h0 : (0 : Fin 2) ∉ (List.finRange 2).filter (· ∉ ([0] : List (Fin 2))) := by decide
  rw [dif_neg (show (0 : Fin 2) ∉ (rowsDims N R D wf).sKept from h0)]

/-- The column axis is the window axis: its window coordinate is the update's column. -/
theorem rows_window_col (e : Fin R) (c' : Fin D) : (rowsDims N R D wf).window (ix2 e c') (1 : Fin 2) = c'.val := by
  unfold ScatterDims.window
  have h1 : (1 : Fin 2) ∈ (List.finRange 2).filter (· ∉ ([0] : List (Fin 2))) := by decide
  rw [dif_pos (show (1 : Fin 2) ∈ (rowsDims N R D wf).sKept from h1)]
  rfl

/-- WHERE UPDATE ELEMENT `(e, c')` LANDS: at `(r, c)` exactly when its row number `idx[e, 0]`, read signed, is `r` and its
    column is `c`. -/
theorem rows_resultIdx?_iff (idx : IVec ⟨2, ![R, 1]⟩ w) (e : Fin R) (c' : Fin D) (r : Fin N) (c : Fin D) :
    (rowsDims N R D wf).resultIdx? (ix2 e c') idx = some (ix2 r c)
      ↔ (idx (ix2 e (0 : Fin 1))).toInt = (r.val : Int) ∧ c' = c := by
  rw [resultIdx?_eq_some_iff]
  constructor
  · intro h
    have h0 := h (0 : Fin 2)
    have h1 := h (1 : Fin 2)
    rw [rows_start_row, rows_window_row] at h0
    rw [rows_start_col, rows_window_col] at h1
    have h0' : (idx (ix2 e (0 : Fin 1))).toInt + ((0 : Nat) : Int) = (r.val : Int) := h0
    have h1' : (0 : Int) + (c'.val : Int) = (c.val : Int) := h1
    exact ⟨by omega, Fin.ext (by omega)⟩
  · rintro ⟨h0, rfl⟩ a
    match a with
    | ⟨0, _⟩ =>
      show (rowsDims N R D wf).start (ix2 e c') idx (0 : Fin 2) + ((rowsDims N R D wf).window (ix2 e c') (0 : Fin 2) : Int)
        = (r.val : Int)
      rw [rows_start_row, rows_window_row]; omega
    | ⟨1, _⟩ =>
      show (rowsDims N R D wf).start (ix2 e c') idx (1 : Fin 2) + ((rowsDims N R D wf).window (ix2 e c') (1 : Fin 2) : Int)
        = (c'.val : Int)
      rw [rows_start_col, rows_window_col]; omega

/-- THE SCATTER-ADD READ AT `(r, c)`: the operand's element plus the sum, over the update rows whose row number
    `idx[e, 0]` (read signed) is `r`, of their elements in column `c`. -/
theorem scatterAdd_rows_apply (x : (⟨2, ![N, D]⟩ : Shape).Idx → EReal) (idx : IVec ⟨2, ![R, 1]⟩ w)
    (upd : (⟨2, ![R, D]⟩ : Shape).Idx → EReal) (r : Fin N) (c : Fin D) :
    Ideal.hostScatterAdd (rowsDims N R D wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  by_cases he : (idx (ix2 e (0 : Fin 1))).toInt = (r.val : Int)
  · rw [if_pos he]
    refine (Finset.sum_congr rfl fun c' _ =>
      if_congr ((rows_resultIdx?_iff wf idx e c' r c).trans (and_iff_right he)) rfl rfl).trans ?_
    exact (Finset.sum_ite_eq' Finset.univ c fun c' => upd (ix2 e c')).trans (if_pos (Finset.mem_univ c))
  · rw [if_neg he]
    exact Finset.sum_eq_zero fun c' _ =>
      if_neg fun h => he ((rows_resultIdx?_iff wf idx e c' r c).mp h).1

end Rows

/-! ## Elements of a vector -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of the rank-1 scatter: an operand `[N]`, scatter indices `[R, 1]` and updates `[R]`; the
    operand's one axis is the inserted window axis the scatter index names, and the updates have no window axis. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)

/-- The one operand axis is named by the scatter index: its start is the position `idx[e, 0]`, read signed. -/
theorem vec_start (idx : IVec ⟨2, ![R, 1]⟩ w) (e : Fin R) :
    (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e) ⟨List.idxOf (0 : Fin 1) (vecDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: no window coordinate. -/
theorem vec_window (j : (⟨1, ![R]⟩ : Shape).Idx) : (vecDims N R wf).window j (0 : Fin 1) = 0 := by
  unfold ScatterDims.window
  have h0 : (0 : Fin 1) ∉ (List.finRange 1).filter (· ∉ ([0] : List (Fin 1))) := by decide
  rw [dif_neg (show (0 : Fin 1) ∉ (vecDims N R wf).sKept from h0)]

/-- WHERE UPDATE ELEMENT `e` LANDS: at `r` exactly when its position `idx[e, 0]`, read signed, is `r`. -/
theorem vec_resultIdx?_iff (idx : IVec ⟨2, ![R, 1]⟩ w) (e : Fin R) (r : Fin N) :
    (vecDims N R wf).resultIdx? (ix1 e) idx = some (ix1 r) ↔ (idx (ix2 e (0 : Fin 1))).toInt = (r.val : Int) := by
  rw [resultIdx?_eq_some_iff]
  constructor
  · intro h
    have h0 := h (0 : Fin 1)
    rw [vec_start, vec_window] at h0
    have h0' : (idx (ix2 e (0 : Fin 1))).toInt + ((0 : Nat) : Int) = (r.val : Int) := h0
    omega
  · intro h0 a
    obtain rfl : a = 0 := Subsingleton.elim _ _
    show (vecDims N R wf).start (ix1 e) idx (0 : Fin 1) + ((vecDims N R wf).window (ix1 e) (0 : Fin 1) : Int) = (r.val : Int)
    rw [vec_start, vec_window]; omega

/-- THE RANK-1 SCATTER-ADD READ AT `r`: the operand's element plus the sum of the update elements whose position
    `idx[e, 0]` (read signed) is `r`. -/
theorem scatterAdd_vec_apply (x : (⟨1, ![N]⟩ : Shape).Idx → EReal) (idx : IVec ⟨2, ![R, 1]⟩ w)
    (upd : (⟨1, ![R]⟩ : Shape).Idx → EReal) (r : Fin N) :
    Ideal.hostScatterAdd (vecDims N R wf) x idx upd (ix1 r)
      = x (ix1 r) + ∑ e : Fin R, if (idx (ix2 e (0 : Fin 1))).toInt = (r.val : Int) then upd (ix1 e) else 0 := by
  unfold Ideal.hostScatterAdd
  congr 1
  rw [Finset.sum_filter, sum_idx1]
  exact Finset.sum_congr rfl fun e _ => if_congr (vec_resultIdx?_iff wf idx e r) rfl rfl

end Vec

end Cert.Lib.ScatterRows
-- ==== Proof.KIdx.lean ====
/-
  The idealized kernel's node outputs, entry by entry.

  Composing the four regions with the host gathers and sums between them, the node output array is, at node `v` and
  column `j`, the first form of the two-layer graph convolution: scale the features at the nodes, sum them along the
  edges into their target nodes, project, scale again, add the bias and clamp at zero; then project, scale, sum along the
  edges, scale and add the bias. Here an edge `e` is accumulated into node `v` when its target number, read as a signed
  integer, is `v`; and it reads from the node whose number is its wrapped source number clamped into the node range.
-/
import proofs.«111428_j16561393893563_2_alg».proof.Proof.KHost
import proofs.«111428_j16561393893563_2_alg».proof.Proof.Spec
import proofs.«111428_j16561393893563_2_alg».proof.Proof.EdgeIdx
import proofs.«111428_j16561393893563_2_alg».proof.Proof.LibColumns
import proofs.«111428_j16561393893563_2_alg».proof.Proof.LibGatherRows
import proofs.«111428_j16561393893563_2_alg».proof.Proof.LibScatterRows
import Idealize.ShloMosaic.Lib.ValueLayout

set_option maxRecDepth 16384

noncomputable section

namespace Cert.KernelIdeal.KIdx

open Cert.KernelIdeal Cert.KernelIdeal.Gen Cert.KernelIdeal.HostT Cert.Edge Idealize.ShloMosaic Idealize.ShloMosaic.ValueIdx
open scoped BigOperators

/-- The scale column at row `u` is the scale vector's entry `u`. -/
theorem dcol_apply (x : S100000.Idx → EReal) (u : Fin 100000) : dcol x (ix2 u (0 : Fin 1)) = x (ix1 u) :=
  Cert.Columns.shapeCast_a_a1_apply x shapeCasts_S100000_S100000x1 u 0

/-- The five-column gather-and-sum spelt with the row gather's and the row scatter's dimension records. -/
theorem agg5_unfold (T : S100000x5.Idx → EReal) (s d : S3300000.Idx → BitVec 32) :
    agg5 T s d = Ideal.hostScatterAdd (Cert.Lib.ScatterRows.rowsDims 100000 3300000 5 scatter_S100000x5_S3300000x1_S3300000x5_1_0_0_1_wf)
      (broadcastInDim S100000x5 ![] bcast_S_S100000x5 (constant (F := Ideal) S_ .f32 0x00000000#32)) (col d)
      (Host.gather (Cert.Lib.GatherRows.rowsDims 100000 3300000 5 gather_S100000x5_S3300000x1_S3300000x5_1_0_n_n_0_1_15_wf) T (wrapCol s)) := rfl

theorem zeros5_apply (i : S100000x5.Idx) :
    broadcastInDim S100000x5 ![] bcast_S_S100000x5 (constant (F := Ideal) S_ .f32 0x00000000#32) i = 0 := Ideal.ofBits_zero_f32

/-- The five-column gather-and-sum at `(v, k)`: the sum over the edges accumulated into `v` of the gathered row's entry. -/
theorem agg5_apply (T : S100000x5.Idx → EReal) (s d : S3300000.Idx → BitVec 32) (v : Fin 100000) (k : Fin 5) :
    agg5 T s d (ix2 v k) = ∑ e : Fin 3300000, if hit (col d) e v then T (ix2 (node (wrapCol s) e) k) else 0 := by
  rw [agg5_unfold, Cert.Lib.ScatterRows.scatterAdd_rows_apply, zeros5_apply, zero_add]
  exact Finset.sum_congr rfl fun e _ => if_congr Iff.rfl (gather_rows_node _ T (wrapCol s) e k) rfl

/-- The same, eight columns wide. -/
theorem agg8_unfold (T : S100000x8.Idx → EReal) (s d : S3300000.Idx → BitVec 32) :
    agg8 T s d = Ideal.hostScatterAdd (Cert.Lib.ScatterRows.rowsDims 100000 3300000 8 scatter_S100000x8_S3300000x1_S3300000x8_1_0_0_1_wf)
      (broadcastInDim S100000x8 ![] bcast_S_S100000x8 (constant (F := Ideal) S_ .f32 0x00000000#32)) (col d)
      (Host.gather (Cert.Lib.GatherRows.rowsDims 100000 3300000 8 gather_S100000x8_S3300000x1_S3300000x8_1_0_n_n_0_1_18_wf) T (wrapCol s)) := rfl

theorem zeros8_apply (i : S100000x8.Idx) :
    broadcastInDim S100000x8 ![] bcast_S_S100000x8 (constant (F := Ideal) S_ .f32 0x00000000#32) i = 0 := Ideal.ofBits_zero_f32

/-- The eight-column gather-and-sum at `(v, j)`. -/
theorem agg8_apply (T : S100000x8.Idx → EReal) (s d : S3300000.Idx → BitVec 32) (v : Fin 100000) (j : Fin 8) :
    agg8 T s d (ix2 v j) = ∑ e : Fin 3300000, if hit (col d) e v then T (ix2 (node (wrapCol s) e) j) else 0 := by
  rw [agg8_unfold, Cert.Lib.ScatterRows.scatterAdd_rows_apply, zeros8_apply, zero_add]
  exact Finset.sum_congr rfl fun e _ => if_congr Iff.rfl (gather_rows_node _ T (wrapCol s) e j) rfl

section Compose
variable (X : S100000x5.Idx → EReal) (sv dv : S3300000.Idx → BitVec 32) (Dn : S100000.Idx → EReal)
  (W1 : S5x30.Idx → EReal) (B1 : S30.Idx → EReal) (W2 : S30x8.Idx → EReal) (B2 : S8.Idx → EReal)

/-- The node outputs as the composition of the regions and the host gathers and sums between them. -/
def scaled : S100000x5.Idx → EReal := Reg0.G X (dcol Dn)
def summed1 : S100000x5.Idx → EReal := agg5 (scaled X Dn) sv dv
def hidden : S100000x30.Idx → EReal := Reg1.G (summed1 X sv dv Dn) W1 (dcol Dn) (shapeCast S1x30 B1 shapeCasts_S30_S1x30)
def projected : S100000x8.Idx → EReal := Reg2.G (hidden X sv dv Dn W1 B1) W2 (dcol Dn)
def summed2 : S100000x8.Idx → EReal := agg8 (projected X sv dv Dn W1 B1 W2) sv dv
def out : S100000x8.Idx → EReal := Reg3.G (summed2 X sv dv Dn W1 B1 W2) (dcol Dn) (shapeCast S1x8 B2 shapeCasts_S8_S1x8)

/-- The arrays as functions of their coordinates. -/
abbrev x' : Fin 100000 → Fin 5 → EReal := fun u k => X (ix2 u k)
abbrev w1' : Fin 5 → Fin 30 → EReal := fun k j => W1 (ix2 k j)
abbrev b1' : Fin 30 → EReal := fun j => B1 (ix1 j)
abbrev w2' : Fin 30 → Fin 8 → EReal := fun k j => W2 (ix2 k j)
abbrev b2' : Fin 8 → EReal := fun j => B2 (ix1 j)
abbrev d' : Fin 100000 → EReal := fun v => Dn (ix1 v)

theorem scaled_apply (u : Fin 100000) (k : Fin 5) : scaled X Dn (ix2 u k) = Spec.xs (x' X) (d' Dn) u k := by
  show X (ix2 u k) * dcol Dn (ix2 u (0 : Fin 1)) = _
  rw [dcol_apply]; rfl

theorem summed1_apply (v : Fin 100000) (k : Fin 5) :
    summed1 X sv dv Dn (ix2 v k) = Spec.agg1 (hit (col dv)) (node (wrapCol sv)) (x' X) (d' Dn) v k := by
  unfold summed1
  rw [agg5_apply]
  exact Finset.sum_congr rfl fun e _ => if_congr Iff.rfl (scaled_apply X Dn _ k) rfl

theorem hidden_apply (v : Fin 100000) (j : Fin 30) :
    hidden X sv dv Dn W1 B1 (ix2 v j) = Spec.h1 (hit (col dv)) (node (wrapCol sv)) (x' X) (w1' W1) (b1' B1) (d' Dn) v j := by
  show max ((∑ k : Fin 5, summed1 X sv dv Dn (ix2 v k) * W1 (ix2 k j)) * dcol Dn (ix2 v (0 : Fin 1))
      + shapeCast S1x30 B1 shapeCasts_S30_S1x30 (ix2 (0 : Fin 1) j)) 0 = _
  rw [dcol_apply, shapeCast_a_1a_apply]
  simp only [summed1_apply]
  rfl

theorem projected_apply (u : Fin 100000) (j : Fin 8) :
    projected X sv dv Dn W1 B1 W2 (ix2 u j)
      = Spec.h2s (hit (col dv)) (node (wrapCol sv)) (x' X) (w1' W1) (b1' B1) (w2' W2) (d' Dn) u j := by
  show (∑ k : Fin 30, hidden X sv dv Dn W1 B1 (ix2 u k) * W2 (ix2 k j)) * dcol Dn (ix2 u (0 : Fin 1)) = _
  rw [dcol_apply]
  simp only [hidden_apply]
  rfl

theorem summed2_apply (v : Fin 100000) (j : Fin 8) :
    summed2 X sv dv Dn W1 B1 W2 (ix2 v j)
      = Spec.agg2 (hit (col dv)) (node (wrapCol sv)) (x' X) (w1' W1) (b1' B1) (w2' W2) (d' Dn) v j := by
  unfold summed2
  rw [agg8_apply]
  exact Finset.sum_congr rfl fun e _ => if_congr Iff.rfl (projected_apply X sv dv Dn W1 B1 W2 _ j) rfl

/-- THE NODE OUTPUTS at `(v, j)`: the first form of the two-layer convolution. -/
theorem out_apply (v : Fin 100000) (j : Fin 8) :
    out X sv dv Dn W1 B1 W2 B2 (ix2 v j)
      = Spec.h2 (hit (col dv)) (node (wrapCol sv)) (x' X) (w1' W1) (b1' B1) (w2' W2) (b2' B2) (d' Dn) v j := by
  show summed2 X sv dv Dn W1 B1 W2 (ix2 v j) * dcol Dn (ix2 v (0 : Fin 1))
      + shapeCast S1x8 B2 shapeCasts_S8_S1x8 (ix2 (0 : Fin 1) j) = _
  rw [dcol_apply, shapeCast_a_1a_apply, summed2_apply]
  rfl

end Compose

end Cert.KernelIdeal.KIdx

end
-- ==== Proof.KValue.lean ====
/-
  The idealized kernel program's result as one term of its arguments.

  Following the buffers through the chain of segments — each stretch of host operations a pure function of what it
  reads, each region's output array the function of its input arrays, every other buffer carried across unchanged — the
  result is the pooling tail of the node outputs, where the node outputs are the composition of the four regions with
  the two gather-and-sum steps, at the edges' source and target nodes and the per-node scale computed from the edge list.
-/
import proofs.«111428_j16561393893563_2_alg».proof.Proof.KHost
import proofs.«111428_j16561393893563_2_alg».proof.Proof.KIdx

set_option maxRecDepth 16384

noncomputable section

namespace Cert.KernelIdeal.KValue

open Cert.KernelIdeal Cert.KernelIdeal.Gen Cert.KernelIdeal.HostT Idealize.ShloMosaic Idealize.ShloMosaic.TcCoe
open Idealize.SL.Sem

variable (m : (ℓ : Loc nD τ sig) → Buf (Elt Ideal) ℓ) (ρ : Dev nD → PrngReg) (c : Dev nD)

local notation "𝐫" => Proc.devRef (τ := τ) (sig := sig) Proc.tc

/-- A stretch of host operations that does not write a buffer leaves it as it was: one step of a chain. -/
macro "hstep " ops:ident : tactic => `(tactic| (
  refine (StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_))

/-- The three stretches before the first region, for a buffer none of them writes. -/
macro "to_launch" : tactic => `(tactic| (hstep hostOps0_2; hstep hostOps0_1; hstep hostOps0; rfl))

/-! ## Buffers carried across segments -/

abbrev EI := m ((c : Thread nD τ).loc main_arg1)

theorem arg0_W3 : W3 m ρ c (𝐫 main_arg0) = m ((c : Thread nD τ).loc main_arg0) := by to_launch
theorem arg4_W4 : W4 m ρ c (𝐫 main_arg4) = m ((c : Thread nD τ).loc main_arg4) := by
  refine (W4_of_ne m ρ c main_arg4 (by decide)).trans ?_; to_launch
theorem arg3_W5 : W5 m ρ c (𝐫 main_arg3) = m ((c : Thread nD τ).loc main_arg3) := by
  hstep hostOps1; refine (W4_of_ne m ρ c main_arg3 (by decide)).trans ?_; to_launch
theorem arg5_W7 : W7 m ρ c (𝐫 main_arg5) = m ((c : Thread nD τ).loc main_arg5) := by
  hstep hostOps2; refine (W6_of_ne m ρ c main_arg5 (by decide)).trans ?_
  hstep hostOps1; refine (W4_of_ne m ρ c main_arg5 (by decide)).trans ?_; to_launch
theorem arg6_W8 : W8 m ρ c (𝐫 main_arg6) = m ((c : Thread nD τ).loc main_arg6) := by
  refine (W8_of_ne m ρ c main_arg6 (by decide)).trans ?_
  hstep hostOps2; refine (W6_of_ne m ρ c main_arg6 (by decide)).trans ?_
  hstep hostOps1; refine (W4_of_ne m ρ c main_arg6 (by decide)).trans ?_; to_launch
theorem arg2_W10 : W10 m ρ c (𝐫 main_arg2) = m ((c : Thread nD τ).loc main_arg2) := by
  refine (W10_of_ne m ρ c main_arg2 (by decide)).trans ?_
  hstep hostOps3; refine (W8_of_ne m ρ c main_arg2 (by decide)).trans ?_
  hstep hostOps2; refine (W6_of_ne m ρ c main_arg2 (by decide)).trans ?_
  hstep hostOps1; refine (W4_of_ne m ρ c main_arg2 (by decide)).trans ?_; to_launch

theorem v3_W4 : W4 m ρ c (𝐫 main_v3) = src (EI m c) := by
  refine (W4_of_ne m ρ c main_v3 (by decide)).trans ?_
  hstep hostOps0_2; hstep hostOps0_1; exact s0_v3 (W0 m ρ c)
theorem v6_W4 : W4 m ρ c (𝐫 main_v6) = dst (EI m c) := by
  refine (W4_of_ne m ρ c main_v6 (by decide)).trans ?_
  hstep hostOps0_2; hstep hostOps0_1; exact s0_v6 (W0 m ρ c)
theorem v3_W8 : W8 m ρ c (𝐫 main_v3) = src (EI m c) := by
  refine (W8_of_ne m ρ c main_v3 (by decide)).trans ?_
  hstep hostOps2; refine (W6_of_ne m ρ c main_v3 (by decide)).trans ?_
  hstep hostOps1; exact v3_W4 m ρ c
theorem v6_W8 : W8 m ρ c (𝐫 main_v6) = dst (EI m c) := by
  refine (W8_of_ne m ρ c main_v6 (by decide)).trans ?_
  hstep hostOps2; refine (W6_of_ne m ρ c main_v6 (by decide)).trans ?_
  hstep hostOps1; exact v6_W4 m ρ c

/-- The per-node scale, as the second stretch leaves it. -/
theorem v15_W2 : W2 m ρ c (𝐫 main_v15) = dinv (dst (EI m c)) :=
  (s01_v15 (W1 m ρ c)).trans
    (congr (congr (congrArg scaleOf (s0_v12 (W0 m ρ c))) (s0_v14 (W0 m ρ c))) (s0_cst3 (W0 m ρ c)))
theorem v15_W4 : W4 m ρ c (𝐫 main_v15) = dinv (dst (EI m c)) := by
  refine (W4_of_ne m ρ c main_v15 (by decide)).trans ?_
  hstep hostOps0_2; exact v15_W2 m ρ c
theorem v15_W6 : W6 m ρ c (𝐫 main_v15) = dinv (dst (EI m c)) := by
  refine (W6_of_ne m ρ c main_v15 (by decide)).trans ?_
  hstep hostOps1; exact v15_W4 m ρ c
theorem v15_W8 : W8 m ρ c (𝐫 main_v15) = dinv (dst (EI m c)) := by
  refine (W8_of_ne m ρ c main_v15 (by decide)).trans ?_
  hstep hostOps2; exact v15_W6 m ρ c

/-! ## The chain, segment by segment -/

abbrev X := m ((c : Thread nD τ).loc main_arg0)
abbrev Dn := dinv (dst (EI m c))

theorem v16_W3 : W3 m ρ c (𝐫 main_v16) = dcol (Dn m c) :=
  (s02_v16 (W2 m ρ c)).trans (congrArg dcol (v15_W2 m ρ c))

theorem v17_W4 : W4 m ρ c (𝐫 main_v17) = KIdx.scaled (X m c) (Dn m c) := by
  refine ((W4_arr m ρ c 2).trans (Reg0.final (V3 m ρ) c)).trans ?_
  show Reg0.G (W3 m ρ c (𝐫 main_arg0)) (W3 m ρ c (𝐫 main_v16)) = _
  rw [arg0_W3, v16_W3]; rfl

theorem v27_W5 : W5 m ρ c (𝐫 main_v27) = KIdx.summed1 (X m c) (src (EI m c)) (dst (EI m c)) (Dn m c) := by
  refine (s1_v27 (W4 m ρ c)).trans ?_
  rw [v17_W4, v3_W4, v6_W4]; rfl
theorem v28_W5 : W5 m ρ c (𝐫 main_v28) = dcol (Dn m c) :=
  (s1_v28 (W4 m ρ c)).trans (congrArg dcol (v15_W4 m ρ c))
theorem v29_W5 : W5 m ρ c (𝐫 main_v29) = shapeCast S1x30 (m ((c : Thread nD τ).loc main_arg4)) shapeCasts_S30_S1x30 := by
  refine (s1_v29 (W4 m ρ c)).trans ?_
  rw [arg4_W4]

theorem v30_W6 : W6 m ρ c (𝐫 main_v30) = KIdx.hidden (X m c) (src (EI m c)) (dst (EI m c)) (Dn m c)
    (m ((c : Thread nD τ).loc main_arg3)) (m ((c : Thread nD τ).loc main_arg4)) := by
  refine ((W6_arr m ρ c 4).trans (Reg1.final (V5 m ρ) c)).trans ?_
  show Reg1.G (W5 m ρ c (𝐫 main_v27)) (W5 m ρ c (𝐫 main_arg3)) (W5 m ρ c (𝐫 main_v28)) (W5 m ρ c (𝐫 main_v29)) = _
  rw [v27_W5, arg3_W5, v28_W5, v29_W5]; rfl

theorem v30_W7 : W7 m ρ c (𝐫 main_v30) = KIdx.hidden (X m c) (src (EI m c)) (dst (EI m c)) (Dn m c)
    (m ((c : Thread nD τ).loc main_arg3)) (m ((c : Thread nD τ).loc main_arg4)) := by
  hstep hostOps2; exact v30_W6 m ρ c
theorem v31_W7 : W7 m ρ c (𝐫 main_v31) = dcol (Dn m c) :=
  (s2_v31 (W6 m ρ c)).trans (congrArg dcol (v15_W6 m ρ c))

theorem v32_W8 : W8 m ρ c (𝐫 main_v32) = KIdx.projected (X m c) (src (EI m c)) (dst (EI m c)) (Dn m c)
    (m ((c : Thread nD τ).loc main_arg3)) (m ((c : Thread nD τ).loc main_arg4)) (m ((c : Thread nD τ).loc main_arg5)) := by
  refine ((W8_arr m ρ c 3).trans (Reg2.final (V7 m ρ) c)).trans ?_
  show Reg2.G (W7 m ρ c (𝐫 main_v30)) (W7 m ρ c (𝐫 main_arg5)) (W7 m ρ c (𝐫 main_v31)) = _
  rw [v30_W7, arg5_W7, v31_W7]; rfl

theorem v42_W9 : W9 m ρ c (𝐫 main_v42) = KIdx.summed2 (X m c) (src (EI m c)) (dst (EI m c)) (Dn m c)
    (m ((c : Thread nD τ).loc main_arg3)) (m ((c : Thread nD τ).loc main_arg4)) (m ((c : Thread nD τ).loc main_arg5)) := by
  refine (s3_v42 (W8 m ρ c)).trans ?_
  rw [v32_W8, v3_W8, v6_W8]; rfl
theorem v43_W9 : W9 m ρ c (𝐫 main_v43) = dcol (Dn m c) :=
  (s3_v43 (W8 m ρ c)).trans (congrArg dcol (v15_W8 m ρ c))
theorem v44_W9 : W9 m ρ c (𝐫 main_v44) = shapeCast S1x8 (m ((c : Thread nD τ).loc main_arg6)) shapeCasts_S8_S1x8 := by
  refine (s3_v44 (W8 m ρ c)).trans ?_
  rw [arg6_W8]

theorem v45_W10 : W10 m ρ c (𝐫 main_v45) = KIdx.out (X m c) (src (EI m c)) (dst (EI m c)) (Dn m c)
    (m ((c : Thread nD τ).loc main_arg3)) (m ((c : Thread nD τ).loc main_arg4)) (m ((c : Thread nD τ).loc main_arg5))
    (m ((c : Thread nD τ).loc main_arg6)) := by
  refine ((W10_arr m ρ c 3).trans (Reg3.final (V9 m ρ) c)).trans ?_
  show Reg3.G (W9 m ρ c (𝐫 main_v42)) (W9 m ρ c (𝐫 main_v43)) (W9 m ρ c (𝐫 main_v44)) = _
  rw [v42_W9, v43_W9, v44_W9]; rfl

/-- THE RESULT: the pooling tail of the node outputs. -/
theorem result : W11 m ρ c (𝐫 main_v57) = tail (KIdx.out (X m c) (src (EI m c)) (dst (EI m c)) (Dn m c)
    (m ((c : Thread nD τ).loc main_arg3)) (m ((c : Thread nD τ).loc main_arg4)) (m ((c : Thread nD τ).loc main_arg5))
    (m ((c : Thread nD τ).loc main_arg6))) (m ((c : Thread nD τ).loc main_arg2)) := by
  refine (s4_v57 (W10 m ρ c)).trans ?_
  rw [v45_W10, arg2_W10]

end Cert.KernelIdeal.KValue

end
-- ==== Proof.LibGatherVec.lean ====
/-
  A gather of single elements of a vector, read at an index.

  Taking elements of a vector `x : [N]` at an integer column of positions `idx : [R, 1]` is a gather that collapses the
  operand's one axis (slices of one element), has no offset axis, and reads each start index off `idx`'s second axis.
  Its element `e` is `x` at the position `idx[e, 0]` — read as a signed integer and clamped into `[0, N − 1]`, as every
  start index of a gather is.
-/
import Idealize.ShloMosaic.PureOps
import Idealize.ShloMosaic.Lib.ValueIdx

namespace Cert.Lib.GatherVec

open Idealize.ShloMosaic Idealize.ShloMosaic.ValueIdx

variable {α : Type}

/-- The dimension numbers of that gather for an operand `[N]`, start indices `[R, 1]` and a result `[R]`. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT `e`: the operand at the position `idx[e, 0]`, read signed and clamped into `[0, N − 1]`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecDims N R wf).start (ix1 e) idx 0 + (vecDims N R wf).batchCoord (ix1 e) 0 + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.GatherVec
-- ==== Proof.RIdx.lean ====
/-
  The idealized reference's node outputs, entry by entry.

  The reference projects first and scales per edge: at node `v` and column `j` its node outputs are the second form of the
  two-layer graph convolution — for each layer, the sum over the edges accumulated into `v` of the projected features of
  the edge's source node times the product of the scales of the edge's two end nodes, plus the bias (and, between the
  layers, the clamp at zero). The scale of the edge's target end is read by a gather at the wrapped, clamped target number.
-/
import proofs.«111428_j16561393893563_2_alg».proof.Proof.RefRead
import proofs.«111428_j16561393893563_2_alg».proof.Proof.Spec
import proofs.«111428_j16561393893563_2_alg».proof.Proof.EdgeIdx
import proofs.«111428_j16561393893563_2_alg».proof.Proof.LibGatherRows
import proofs.«111428_j16561393893563_2_alg».proof.Proof.LibGatherVec
import proofs.«111428_j16561393893563_2_alg».proof.Proof.LibScatterRows
import Idealize.ShloMosaic.Lib.ValueLayout

set_option maxRecDepth 16384

noncomputable section

namespace Cert.ReferenceIdeal.RIdx

open Cert.ReferenceIdeal Cert.ReferenceIdeal.Gen Cert.ReferenceIdeal.Read Cert.Edge Idealize.ShloMosaic Idealize.ShloMosaic.ValueIdx
open scoped BigOperators

/-! ## Layout operations of this program read at coordinates -/

/-- A per-edge vector spread to an index column reads, at `(e, u)`, the vector's entry `e`. -/
theorem col_apply {α : Type} (v : S3300000.Idx → α) (e : Fin 3300000) (u : Fin 1) :
    broadcastInDim S3300000x1 ![0] bcast_S3300000_S3300000x1_0 v (ix2 e u) = v (ix1 e) :=
  broadcastInDim_apply _ bcast_S3300000_S3300000x1_0 v (ix2 e u) (ix1 e) (fun a => match a with
    | ⟨0, _⟩ => by show e.val = if (3300000 : Nat) = 1 then 0 else e.val; rw [if_neg (by decide)])

/-- A per-edge column spread over thirty columns reads, at `(e, j)`, the column's entry `e`. -/
theorem spread30_apply {α : Type} (v : S3300000x1.Idx → α) (e : Fin 3300000) (j : Fin 30) :
    broadcastInDim S3300000x30 ![0, 1] bcast_S3300000x1_S3300000x30_0_1 v (ix2 e j) = v (ix2 e (0 : Fin 1)) :=
  broadcastInDim_apply _ bcast_S3300000x1_S3300000x30_0_1 v (ix2 e j) (ix2 e (0 : Fin 1)) (fun a => match a with
    | ⟨0, _⟩ => by show e.val = if (3300000 : Nat) = 1 then 0 else e.val; rw [if_neg (by decide)]
    | ⟨1, _⟩ => by show 0 = if (1 : Nat) = 1 then 0 else j.val; rw [if_pos rfl])

/-- The same over eight columns. -/
theorem spread8_apply {α : Type} (v : S3300000x1.Idx → α) (e : Fin 3300000) (j : Fin 8) :
    broadcastInDim S3300000x8 ![0, 1] bcast_S3300000x1_S3300000x8_0_1 v (ix2 e j) = v (ix2 e (0 : Fin 1)) :=
  broadcastInDim_apply _ bcast_S3300000x1_S3300000x8_0_1 v (ix2 e j) (ix2 e (0 : Fin 1)) (fun a => match a with
    | ⟨0, _⟩ => by show e.val = if (3300000 : Nat) = 1 then 0 else e.val; rw [if_neg (by decide)]
    | ⟨1, _⟩ => by show 0 = if (1 : Nat) = 1 then 0 else j.val; rw [if_pos rfl])

/-- A bias vector spread over all nodes reads, at `(v, j)`, the vector's entry `j` (thirty columns). -/
theorem bias30_apply (b : S30.Idx → EReal) (v : Fin 100000) (j : Fin 30) :
    broadcastInDim S100000x30 ![0, 1] bcast_S1x30_S100000x30_0_1 (broadcastInDim S1x30 ![1] bcast_S30_S1x30_1 b) (ix2 v j)
      = b (ix1 j) :=
  (broadcastInDim_apply _ bcast_S1x30_S100000x30_0_1 (broadcastInDim S1x30 ![1] bcast_S30_S1x30_1 b) (ix2 v j)
      (ix2 (0 : Fin 1) j) (fun a => match a with
    | ⟨0, _⟩ => by show 0 = if (1 : Nat) = 1 then 0 else v.val; rw [if_pos rfl]
    | ⟨1, _⟩ => by show j.val = if (30 : Nat) = 1 then 0 else j.val; rw [if_neg (by decide)])).trans
  (broadcastInDim_apply _ bcast_S30_S1x30_1 b (ix2 (0 : Fin 1) j) (ix1 j) (fun a => match a with
    | ⟨0, _⟩ => by show j.val = if (30 : Nat) = 1 then 0 else j.val; rw [if_neg (by decide)]))

/-- The same with eight columns. -/
theorem bias8_apply (b : S8.Idx → EReal) (v : Fin 100000) (j : Fin 8) :
    broadcastInDim S100000x8 ![0, 1] bcast_S1x8_S100000x8_0_1 (broadcastInDim S1x8 ![1] bcast_S8_S1x8_1 b) (ix2 v j)
      = b (ix1 j) :=
  (broadcastInDim_apply _ bcast_S1x8_S100000x8_0_1 (broadcastInDim S1x8 ![1] bcast_S8_S1x8_1 b) (ix2 v j)
      (ix2 (0 : Fin 1) j) (fun a => match a with
    | ⟨0, _⟩ => by show 0 = if (1 : Nat) = 1 then 0 else v.val; rw [if_pos rfl]
    | ⟨1, _⟩ => by show j.val = if (8 : Nat) = 1 then 0 else j.val; rw [if_neg (by decide)])).trans
  (broadcastInDim_apply _ bcast_S8_S1x8_1 b (ix2 (0 : Fin 1) j) (ix1 j) (fun a => match a with
    | ⟨0, _⟩ => by show j.val = if (8 : Nat) = 1 then 0 else j.val; rw [if_neg (by decide)]))

section Compose
variable (x0 : S100000x5.Idx → EReal) (x1 : S2x3200000.Idx → BitVec 32) (x3 : S5x30.Idx → EReal) (x4 : S30.Idx → EReal)
  (x5 : S30x8.Idx → EReal) (x6 : S8.Idx → EReal)

/-- The target column, the wrapped source column, the wrapped target column, and the per-node scale. -/
abbrev dc : S3300000x1.Idx → BitVec 32 := val_main_v10 (F := Ideal) x1
abbrev sc : S3300000x1.Idx → BitVec 32 := val_main_v22 (F := Ideal) x1
abbrev tc : S3300000x1.Idx → BitVec 32 := val_main_v29 (F := Ideal) x1
abbrev dn : S100000.Idx → EReal := val_main_v16 (F := Ideal) x1

/-- The program recomputes the same columns and the same scale at each use. -/
theorem v43_eq : val_main_v43 (F := Ideal) x1 = dc x1 := rfl
theorem v85_eq : val_main_v85 (F := Ideal) x1 = dc x1 := rfl
theorem v37_eq : val_main_v37 (F := Ideal) x1 = sc x1 := rfl
theorem v64_eq : val_main_v64 (F := Ideal) x1 = sc x1 := rfl
theorem v79_eq : val_main_v79 (F := Ideal) x1 = sc x1 := rfl
theorem v71_eq : val_main_v71 (F := Ideal) x1 = tc x1 := rfl
theorem v58_eq : val_main_v58 (F := Ideal) x1 = dn x1 := rfl

abbrev x' : Fin 100000 → Fin 5 → EReal := fun u k => x0 (ix2 u k)
abbrev w1' : Fin 5 → Fin 30 → EReal := fun k j => x3 (ix2 k j)
abbrev b1' : Fin 30 → EReal := fun j => x4 (ix1 j)
abbrev w2' : Fin 30 → Fin 8 → EReal := fun k j => x5 (ix2 k j)
abbrev b2' : Fin 8 → EReal := fun j => x6 (ix1 j)
abbrev d' : Fin 100000 → EReal := fun v => dn x1 (ix1 v)

/-! ### The stages spelt with the row and vector gathers' and scatters' dimension records -/

theorem v23_unfold : val_main_v23 (F := Ideal) x1
    = Host.gather (Cert.Lib.GatherVec.vecDims 100000 3300000 gather_S100000_S3300000x1_S3300000_n_0_n_n_0_1_1_wf) (dn x1) (sc x1) := rfl
theorem v30_unfold : val_main_v30 (F := Ideal) x1
    = Host.gather (Cert.Lib.GatherVec.vecDims 100000 3300000 gather_S100000_S3300000x1_S3300000_n_0_n_n_0_1_1_wf) (dn x1) (tc x1) := rfl
theorem v65_unfold : val_main_v65 (F := Ideal) x1
    = Host.gather (Cert.Lib.GatherVec.vecDims 100000 3300000 gather_S100000_S3300000x1_S3300000_n_0_n_n_0_1_1_wf) (dn x1) (sc x1) := rfl
theorem v72_unfold : val_main_v72 (F := Ideal) x1
    = Host.gather (Cert.Lib.GatherVec.vecDims 100000 3300000 gather_S100000_S3300000x1_S3300000_n_0_n_n_0_1_1_wf) (dn x1) (tc x1) := rfl
theorem v38_unfold : val_main_v38 (F := Ideal) x0 x1 x3
    = Host.gather (Cert.Lib.GatherRows.rowsDims 100000 3300000 30 gather_S100000x30_S3300000x1_S3300000x30_1_0_n_n_0_1_130_wf)
        (val_main_v7 (F := Ideal) x0 x3) (sc x1) := rfl
theorem v80_unfold : val_main_v80 (F := Ideal) x0 x1 x3 x4 x5
    = Host.gather (Cert.Lib.GatherRows.rowsDims 100000 3300000 8 gather_S100000x8_S3300000x1_S3300000x8_1_0_n_n_0_1_18_wf)
        (val_main_v49 (F := Ideal) x0 x1 x3 x4 x5) (sc x1) := rfl
theorem v40_unfold : val_main_v40 (F := Ideal) x1
    = broadcastInDim S3300000x30 ![0, 1] bcast_S3300000x1_S3300000x30_0_1
        (broadcastInDim S3300000x1 ![0] bcast_S3300000_S3300000x1_0 (val_main_v31 (F := Ideal) x1)) := rfl
theorem v82_unfold : val_main_v82 (F := Ideal) x1
    = broadcastInDim S3300000x8 ![0, 1] bcast_S3300000x1_S3300000x8_0_1
        (broadcastInDim S3300000x1 ![0] bcast_S3300000_S3300000x1_0 (val_main_v73 (F := Ideal) x1)) := rfl
theorem v44_unfold : val_main_v44 (F := Ideal) x0 x1 x3
    = Ideal.hostScatterAdd (Cert.Lib.ScatterRows.rowsDims 100000 3300000 30 scatter_S100000x30_S3300000x1_S3300000x30_1_0_0_1_wf)
        (val_main_v42 (F := Ideal)) (dc x1) (val_main_v41 (F := Ideal) x0 x1 x3) := rfl
theorem v86_unfold : val_main_v86 (F := Ideal) x0 x1 x3 x4 x5
    = Ideal.hostScatterAdd (Cert.Lib.ScatterRows.rowsDims 100000 3300000 8 scatter_S100000x8_S3300000x1_S3300000x8_1_0_0_1_wf)
        (val_main_v84 (F := Ideal)) (dc x1) (val_main_v83 (F := Ideal) x0 x1 x3 x4 x5) := rfl
theorem v46_unfold : val_main_v46 (F := Ideal) x4
    = broadcastInDim S100000x30 ![0, 1] bcast_S1x30_S100000x30_0_1 (broadcastInDim S1x30 ![1] bcast_S30_S1x30_1 x4) := rfl
theorem v88_unfold : val_main_v88 (F := Ideal) x6
    = broadcastInDim S100000x8 ![0, 1] bcast_S1x8_S100000x8_0_1 (broadcastInDim S1x8 ![1] bcast_S8_S1x8_1 x6) := rfl
theorem v42_zero (i : S100000x30.Idx) : val_main_v42 (F := Ideal) i = 0 := Ideal.ofBits_zero_f32
theorem v84_zero (i : S100000x8.Idx) : val_main_v84 (F := Ideal) i = 0 := Ideal.ofBits_zero_f32
/-- The pointwise stages as products, sums and a maximum of the stages they read (through the instance's own laws, the
    operands left folded). -/
theorem v31_mul (i : S3300000.Idx) :
    val_main_v31 (F := Ideal) x1 i = val_main_v23 (F := Ideal) x1 i * val_main_v30 (F := Ideal) x1 i :=
  (val_main_v31_apply (F := Ideal) x1 i).trans (Ideal.mulf_def _ _)
theorem v73_mul (i : S3300000.Idx) :
    val_main_v73 (F := Ideal) x1 i = val_main_v65 (F := Ideal) x1 i * val_main_v72 (F := Ideal) x1 i :=
  (val_main_v73_apply (F := Ideal) x1 i).trans (Ideal.mulf_def _ _)
theorem v41_mul (i : S3300000x30.Idx) :
    val_main_v41 (F := Ideal) x0 x1 x3 i = val_main_v38 (F := Ideal) x0 x1 x3 i * val_main_v40 (F := Ideal) x1 i :=
  (val_main_v41_apply (F := Ideal) x0 x1 x3 i).trans (Ideal.mulf_def _ _)
theorem v83_mul (i : S3300000x8.Idx) :
    val_main_v83 (F := Ideal) x0 x1 x3 x4 x5 i
      = val_main_v80 (F := Ideal) x0 x1 x3 x4 x5 i * val_main_v82 (F := Ideal) x1 i :=
  (val_main_v83_apply (F := Ideal) x0 x1 x3 x4 x5 i).trans (Ideal.mulf_def _ _)
theorem v47_add (i : S100000x30.Idx) :
    val_main_v47 (F := Ideal) x0 x1 x3 x4 i = val_main_v44 (F := Ideal) x0 x1 x3 i + val_main_v46 (F := Ideal) x4 i :=
  (val_main_v47_apply (F := Ideal) x0 x1 x3 x4 i).trans (Ideal.addf_def _ _)
theorem v89_add (i : S100000x8.Idx) :
    val_main_v89 (F := Ideal) x0 x1 x3 x4 x5 x6 i
      = val_main_v86 (F := Ideal) x0 x1 x3 x4 x5 i + val_main_v88 (F := Ideal) x6 i :=
  (val_main_v89_apply (F := Ideal) x0 x1 x3 x4 x5 x6 i).trans (Ideal.addf_def _ _)
theorem call1_zero (i : S100000x30.Idx) : val_main_call1_v0 (F := Ideal) i = 0 := Ideal.ofBits_zero_f32
theorem v48_max (i : S100000x30.Idx) :
    val_main_v48 (F := Ideal) x0 x1 x3 x4 i = max (val_main_v47 (F := Ideal) x0 x1 x3 x4 i) 0 :=
  (val_main_v48_apply (F := Ideal) x0 x1 x3 x4 i).trans
    ((Ideal.maximumf_def _ _).trans (congrArg (max (val_main_v47 (F := Ideal) x0 x1 x3 x4 i)) (call1_zero i)))

/-- The first projection at `(u, j)`. -/
theorem hw_apply (u : Fin 100000) (j : Fin 30) : val_main_v7 (F := Ideal) x0 x3 (ix2 u j) = Spec.hw (x' x0) (w1' x3) u j := by
  rw [val_main_v7_apply]
  refine Finset.sum_congr rfl fun k _ => ?_
  have el : lidx_main_v7 (ix2 u j) k = ix2 u k := funext fun a => by match a with | ⟨0, _⟩ => rfl | ⟨1, _⟩ => rfl
  have er : ridx_main_v7 (ix2 u j) k = ix2 k j := funext fun a => by match a with | ⟨0, _⟩ => rfl | ⟨1, _⟩ => rfl
  rw [el, er]

/-- A gather of the scale vector at an index column reads, for edge `e`, the scale of the node the column names. -/
theorem gather_scale (D : S100000.Idx → EReal) (c : S3300000x1.Idx → BitVec 32) (e : Fin 3300000) :
    Host.gather (Cert.Lib.GatherVec.vecDims 100000 3300000 gather_S100000_S3300000x1_S3300000_n_0_n_n_0_1_1_wf) D c (ix1 e)
      = D (ix1 (node c e)) :=
  Cert.Lib.GatherVec.gather_vec_apply (by decide) gather_S100000_S3300000x1_S3300000_n_0_n_n_0_1_1_wf D c e

/-- The first layer's per-edge scale: the product of the scales of the edge's two end nodes. -/
theorem nrm1_apply (e : Fin 3300000) :
    val_main_v31 (F := Ideal) x1 (ix1 e) = d' x1 (node (sc x1) e) * d' x1 (node (tc x1) e) := by
  rw [v31_mul, v23_unfold, v30_unfold, gather_scale, gather_scale]

/-- The second layer's per-edge scale: the same product. -/
theorem nrm2_apply (e : Fin 3300000) :
    val_main_v73 (F := Ideal) x1 (ix1 e) = d' x1 (node (sc x1) e) * d' x1 (node (tc x1) e) := by
  rw [v73_mul, v65_unfold, v72_unfold, gather_scale, gather_scale]

/-- The first layer's per-edge message at `(e, j)`. -/
theorem msg1_apply (e : Fin 3300000) (j : Fin 30) :
    val_main_v41 (F := Ideal) x0 x1 x3 (ix2 e j)
      = Spec.hw (x' x0) (w1' x3) (node (sc x1) e) j * (d' x1 (node (sc x1) e) * d' x1 (node (tc x1) e)) := by
  rw [v41_mul, v38_unfold, v40_unfold, spread30_apply, col_apply, nrm1_apply, gather_rows_node, hw_apply]

/-- The first layer's output before the clamp, at `(v, j)`. -/
theorem o1_apply (v : Fin 100000) (j : Fin 30) :
    val_main_v47 (F := Ideal) x0 x1 x3 x4 (ix2 v j)
      = Spec.o1 (hit (dc x1)) (node (sc x1)) (node (tc x1)) (x' x0) (w1' x3) (b1' x4) (d' x1) v j := by
  rw [v47_add, v44_unfold, Cert.Lib.ScatterRows.scatterAdd_rows_apply, v42_zero, zero_add, v46_unfold, bias30_apply]
  simp only [msg1_apply]
  unfold Spec.o1
  rfl

/-- The first layer's output, clamped at zero. -/
theorem r1_apply (v : Fin 100000) (j : Fin 30) :
    val_main_v48 (F := Ideal) x0 x1 x3 x4 (ix2 v j)
      = Spec.r1 (hit (dc x1)) (node (sc x1)) (node (tc x1)) (x' x0) (w1' x3) (b1' x4) (d' x1) v j := by
  rw [v48_max, o1_apply]
  unfold Spec.r1
  rfl

/-- The second projection at `(u, j)`. -/
theorem hw2_apply (u : Fin 100000) (j : Fin 8) :
    val_main_v49 (F := Ideal) x0 x1 x3 x4 x5 (ix2 u j)
      = Spec.hw2 (hit (dc x1)) (node (sc x1)) (node (tc x1)) (x' x0) (w1' x3) (b1' x4) (w2' x5) (d' x1) u j := by
  rw [val_main_v49_apply]
  refine Finset.sum_congr rfl fun k _ => ?_
  have el : lidx_main_v49 (ix2 u j) k = ix2 u k := funext fun a => by match a with | ⟨0, _⟩ => rfl | ⟨1, _⟩ => rfl
  have er : ridx_main_v49 (ix2 u j) k = ix2 k j := funext fun a => by match a with | ⟨0, _⟩ => rfl | ⟨1, _⟩ => rfl
  rw [el, er, r1_apply]

/-- The second layer's per-edge message at `(e, j)`. -/
theorem msg2_apply (e : Fin 3300000) (j : Fin 8) :
    val_main_v83 (F := Ideal) x0 x1 x3 x4 x5 (ix2 e j)
      = Spec.hw2 (hit (dc x1)) (node (sc x1)) (node (tc x1)) (x' x0) (w1' x3) (b1' x4) (w2' x5) (d' x1) (node (sc x1) e) j
        * (d' x1 (node (sc x1) e) * d' x1 (node (tc x1) e)) := by
  rw [v83_mul, v80_unfold, v82_unfold, spread8_apply, col_apply, nrm2_apply, gather_rows_node, hw2_apply]

/-- THE NODE OUTPUTS at `(v, j)`: the second form of the two-layer convolution. -/
theorem o2_apply (v : Fin 100000) (j : Fin 8) :
    val_main_v89 (F := Ideal) x0 x1 x3 x4 x5 x6 (ix2 v j)
      = Spec.o2 (hit (dc x1)) (node (sc x1)) (node (tc x1)) (x' x0) (w1' x3) (b1' x4) (w2' x5) (b2' x6) (d' x1) v j := by
  rw [v89_add, v86_unfold, Cert.Lib.ScatterRows.scatterAdd_rows_apply, v84_zero, zero_add, v88_unfold, bias8_apply]
  simp only [msg2_apply]
  unfold Spec.o2
  rfl

end Compose

end Cert.ReferenceIdeal.RIdx

end
-- ==== Proof.Scalars.lean ====
import Idealize.ShloMosaic.PureOps.Ideal.Laws
import Idealize.ShloMosaic.PureOps

/-!
# Three scalar facts at the ideal instance

Floats are extended reals.  (1) A count `0 + ∑ e, [P e] · 1` is a real number.  (2) For a real
`deg`, the scale `if deg > 0 then deg ^ (-1/2) else 0` is a real number, because a real power of
a real base is real.  (3) A 32-bit word whose signed value is a natural number `v` is not
negative, so the wrap-around correction leaves it unchanged and it reads back as `v`.
-/

noncomputable section

open scoped BigOperators

namespace Cert.Scalars

open Idealize.ShloMosaic

/-- The coercion `ℝ → EReal` commutes with finite sums. -/
theorem coe_sum {ι : Type*} (S : Finset ι) (f : ι → ℝ) :
    (∑ i ∈ S, ((f i : ℝ) : EReal)) = ((∑ i ∈ S, f i : ℝ) : EReal) := by
  classical
  induction S using Finset.induction_on with
  | empty => simp
  | insert a S ha ih =>
    rw [Finset.sum_insert ha, Finset.sum_insert ha, ih, EReal.coe_add]

/-- The single-precision pattern of one denotes the real number one. -/
theorem one_eq : Ideal.ofBits .f32 0x3F800000#32 = ((1 : ℝ) : EReal) := by
  simp [Ideal.ofBits, Ideal.ieee, -EReal.coe_mul]; norm_num

/-- The single-precision pattern of minus one half denotes a real number. -/
theorem neg_half_eq : Ideal.ofBits .f32 0xBF000000#32 = ((-(1 / 2) : ℝ) : EReal) := by
  simp [Ideal.ofBits, Ideal.ieee, -EReal.coe_mul]; norm_num

/-- A count of the indices satisfying `P` is a real number. -/
theorem deg_real {E : ℕ} (P : Fin E → Prop) [DecidablePred P] :
    ∃ r : ℝ, Ideal.ofBits .f32 0x00000000#32
      + ∑ e : Fin E, (if P e then Ideal.ofBits .f32 0x3F800000#32 else (0 : EReal)) = (r : EReal) := by
  refine ⟨∑ e : Fin E, if P e then (1 : ℝ) else 0, ?_⟩
  rw [Ideal.ofBits_zero_f32, zero_add, one_eq, ← coe_sum]
  refine Finset.sum_congr rfl fun e _ => ?_
  split_ifs <;> simp

/-- The inverse square root scale of a real degree, set to zero where the degree is not
positive, is a real number. -/
theorem dinv_real (deg : EReal) (hdeg : ∃ r : ℝ, deg = (r : EReal)) :
    ∃ r : ℝ, Scalar.select (Ideal.cmp .ogt deg (Ideal.ofBits .f32 0x00000000#32))
      (Ideal.pow deg (Ideal.ofBits .f32 0xBF000000#32)) (Ideal.ofBits .f32 0x00000000#32)
        = (r : EReal) := by
  obtain ⟨x, rfl⟩ := hdeg
  rw [neg_half_eq, Ideal.ofBits_zero_f32]
  unfold Scalar.select
  split_ifs
  · exact ⟨Real.rpow x (-(1 / 2)), rfl⟩
  · exact ⟨0, rfl⟩

/-- A word whose signed value is the natural number `v` is not negative: the correction
`w + 100000` for negative indices is not taken, and the word reads back as `v`. -/
theorem norm_index (w : BitVec 32) (v : ℕ) (hv : v < 100000) (h : w.toInt = (v : Int)) :
    (Scalar.select (IntOp.cmpi .slt w 0#32) (IntOp.addi w 100000#32) w).toInt.toNat = v := by
  have hn : ¬ ((v : Int) < 0) := by omega
  have hs : IntOp.cmpi .slt w 0#32 = 0#1 := by
    simp [IntOp.cmpi, BitVec.slt, h, hn]
  rw [hs]
  simp [Scalar.select, h]

/-- Clamping the normalised index to the last row changes nothing. -/
theorem min_norm (w : BitVec 32) (v : ℕ) (hv : v < 100000) (h : w.toInt = (v : Int)) :
    min ((Scalar.select (IntOp.cmpi .slt w 0#32) (IntOp.addi w 100000#32) w).toInt.toNat)
      (100000 - 1) = v := by
  rw [norm_index w v hv h]
  omega

end Cert.Scalars
-- ==== Proof.Bridge.lean ====
/-
  The two programs compute the same node outputs, and apply the same pooling tail to them.

  Both programs read the same edge list: the kernel's target column, wrapped source column and per-node scale ARE the
  reference's (the same operations of the same argument). An edge accumulated into node `v` has target number `v`, a
  valid node number, so wrapping and clamping it gives `v` again: the reference's gather of the scale at the edge's
  target end reads the scale of `v`. Every degree is a finite count, so every scale is a real; with finite features,
  weights and biases the two forms of the two-layer convolution agree entry by entry.
-/
import proofs.«111428_j16561393893563_2_alg».proof.Proof.KIdx
import proofs.«111428_j16561393893563_2_alg».proof.Proof.RIdx
import proofs.«111428_j16561393893563_2_alg».proof.Proof.Scalars

set_option maxRecDepth 16384

noncomputable section

namespace Cert.Bridge

open Idealize.ShloMosaic Idealize.ShloMosaic.ValueIdx Cert.Edge
open scoped BigOperators

namespace R
open Cert.ReferenceIdeal Cert.ReferenceIdeal.Gen Cert.ReferenceIdeal.Read Cert.ReferenceIdeal.RIdx

variable (x1 : S2x3200000.Idx → BitVec 32)

/-- The degree vector spelt with the vector scatter's dimension record. -/
theorem v11_unfold : val_main_v11 (F := Ideal) x1
    = Ideal.hostScatterAdd (Cert.Lib.ScatterRows.vecDims 100000 3300000 scatter_S100000_S3300000x1_S3300000_n_0_0_1_wf)
        (val_main_v9 (F := Ideal)) (dc x1) (val_main_v8 (F := Ideal)) := rfl

/-- The constant vectors of the degree and scale computation, entry by entry. -/
theorem v9_apply (i : S100000.Idx) : val_main_v9 (F := Ideal) i = Ideal.ofBits .f32 0x00000000#32 := rfl
theorem v8_apply (i : S3300000.Idx) : val_main_v8 (F := Ideal) i = Ideal.ofBits .f32 0x3F800000#32 := rfl
theorem v12_apply (i : S100000.Idx) : val_main_v12 (F := Ideal) i = Ideal.ofBits .f32 0x00000000#32 := rfl
theorem v14_apply (i : S100000.Idx) : val_main_v14 (F := Ideal) i = Ideal.ofBits .f32 0xBF000000#32 := rfl
theorem call0_apply (i : S100000.Idx) : val_main_call0_v1 (F := Ideal) i = Ideal.ofBits .f32 0x00000000#32 := rfl

/-- The float comparison at the ideal instance is the comparison of extended reals. -/
theorem cmpf_ideal (p : CmpFPredicate) (x y : Ideal .f32) : FloatOps.cmpf (F := Ideal) p x y = Ideal.cmp p x y := rfl

/-- Every node's degree is a real number: zero plus a one for each edge accumulated into it. -/
theorem deg_real (v : Fin 100000) : ∃ r : ℝ, val_main_v11 (F := Ideal) x1 (ix1 v) = (r : EReal) := by
  rw [v11_unfold, Cert.Lib.ScatterRows.scatterAdd_vec_apply, v9_apply]
  simp only [v8_apply]
  exact Cert.Scalars.deg_real fun e => (dc x1 (ix2 e (0 : Fin 1))).toInt = (v.val : Int)

/-- Every node's scale is a real number. -/
theorem scale_real (v : Fin 100000) : ∃ r : ℝ, d' x1 v = (r : EReal) := by
  show ∃ r : ℝ, val_main_v16 (F := Ideal) x1 (ix1 v) = (r : EReal)
  rw [val_main_v16_apply, val_main_v13_apply, val_main_v15_apply, cmpf_ideal, Ideal.hostPowf_def, v12_apply, v14_apply,
    call0_apply]
  exact Cert.Scalars.dinv_real _ (deg_real x1 v)

/-- An edge accumulated into node `v` has `v` as the node its wrapped, clamped target number names. -/
theorem target_node (e : Fin 3300000) (v : Fin 100000) (h : hit (dc x1) e v) : node (tc x1) e = v := by
  have hw : dc x1 (ix2 e (0 : Fin 1)) = val_main_v6 (F := Ideal) x1 (ix1 e) := col_apply (val_main_v6 (F := Ideal) x1) e 0
  have ht : tc x1 (ix2 e (0 : Fin 1))
      = Scalar.select (IntOp.cmpi .slt (val_main_v6 (F := Ideal) x1 (ix1 e)) 0#32)
          (IntOp.addi (val_main_v6 (F := Ideal) x1 (ix1 e)) 100000#32) (val_main_v6 (F := Ideal) x1 (ix1 e)) :=
    col_apply (val_main_v28 (F := Ideal) x1) e 0
  have h' : (val_main_v6 (F := Ideal) x1 (ix1 e)).toInt = (v.val : Int) := hw ▸ h
  refine Fin.ext ?_
  show min (tc x1 (ix2 e (0 : Fin 1))).toInt.toNat (100000 - 1) = v.val
  rw [ht]
  exact Cert.Scalars.min_norm _ v.val v.isLt h'

end R

/-! ## The kernel's columns and scale are the reference's -/

theorem dc_eq (ei : Cert.KernelIdeal.S2x3200000.Idx → BitVec 32) :
    Cert.KernelIdeal.HostT.col (Cert.KernelIdeal.HostT.dst ei) = Cert.ReferenceIdeal.RIdx.dc ei := rfl
theorem sc_eq (ei : Cert.KernelIdeal.S2x3200000.Idx → BitVec 32) :
    Cert.KernelIdeal.HostT.wrapCol (Cert.KernelIdeal.HostT.src ei) = Cert.ReferenceIdeal.RIdx.sc ei := rfl
theorem dn_eq (ei : Cert.KernelIdeal.S2x3200000.Idx → BitVec 32) :
    Cert.KernelIdeal.HostT.dinv (Cert.KernelIdeal.HostT.dst ei) = Cert.ReferenceIdeal.RIdx.dn ei := rfl

/-- THE NODE OUTPUTS AGREE: with finite features, weights and biases, the kernel's node outputs are the reference's. -/
theorem out_eq (X : Cert.KernelIdeal.S100000x5.Idx → EReal) (ei : Cert.KernelIdeal.S2x3200000.Idx → BitVec 32)
    (W1 : Cert.KernelIdeal.S5x30.Idx → EReal) (B1 : Cert.KernelIdeal.S30.Idx → EReal)
    (W2 : Cert.KernelIdeal.S30x8.Idx → EReal) (B2 : Cert.KernelIdeal.S8.Idx → EReal)
    (hX : ∀ i, ∃ r : ℝ, X i = (r : EReal)) (hW1 : ∀ i, ∃ r : ℝ, W1 i = (r : EReal)) (hB1 : ∀ i, ∃ r : ℝ, B1 i = (r : EReal))
    (hW2 : ∀ i, ∃ r : ℝ, W2 i = (r : EReal)) (hB2 : ∀ i, ∃ r : ℝ, B2 i = (r : EReal)) :
    Cert.KernelIdeal.KIdx.out X (Cert.KernelIdeal.HostT.src ei) (Cert.KernelIdeal.HostT.dst ei)
        (Cert.KernelIdeal.HostT.dinv (Cert.KernelIdeal.HostT.dst ei)) W1 B1 W2 B2
      = Cert.ReferenceIdeal.Read.val_main_v89 (F := Ideal) X ei W1 B1 W2 B2 := by
  funext i
  obtain ⟨v, j, rfl⟩ : ∃ (v : Fin 100000) (j : Fin 8), i = ix2 v j := ⟨i 0, i 1, eq_ix2 i⟩
  rw [Cert.KernelIdeal.KIdx.out_apply, Cert.ReferenceIdeal.RIdx.o2_apply, dc_eq, sc_eq, dn_eq]
  exact congrFun (congrFun (Cert.Spec.h2_eq_o2 (s := node (Cert.ReferenceIdeal.RIdx.sc ei))
    (fun e v h => R.target_node ei e v h)
    (fun u k => hX _) (fun k j => hW1 _) (fun j => hB1 _) (fun k j => hW2 _) (fun j => hB2 _)
    (fun v => R.scale_real ei v)) v) j

/-- THE SAME TAIL: the reference's result is the kernel's pooling tail of the reference's node outputs. -/
theorem tail_eq (x0 : Cert.ReferenceIdeal.S100000x5.Idx → EReal) (x1 : Cert.ReferenceIdeal.S2x3200000.Idx → BitVec 32)
    (x2 : Cert.ReferenceIdeal.S100000.Idx → BitVec 32) (x3 : Cert.ReferenceIdeal.S5x30.Idx → EReal)
    (x4 : Cert.ReferenceIdeal.S30.Idx → EReal) (x5 : Cert.ReferenceIdeal.S30x8.Idx → EReal)
    (x6 : Cert.ReferenceIdeal.S8.Idx → EReal) :
    Cert.ReferenceIdeal.Read.val_main_v101 (F := Ideal) x0 x1 x2 x3 x4 x5 x6
      = Cert.KernelIdeal.HostT.tail (Cert.ReferenceIdeal.Read.val_main_v89 (F := Ideal) x0 x1 x3 x4 x5 x6) x2 := rfl

end Cert.Bridge

end
-- ==== Proof.Finite.lean ====
import proofs.«111428_j16561393893563_2_alg».proof.Defs
import proofs.«111428_j16561393893563_2_alg».proof.Proof.Gen.Pre_finite_inputs
import Idealize.ShloMosaic.Lib.ReduceAll
import Idealize.ShloMosaic.Lib.ValueIdx
import Idealize.ShloMosaic.PureOps.Ideal.Laws

/-!
# Finite inputs are real numbers

The precondition states, for each float argument array `a`, that `|a i| < +∞` holds at every
index, the five statements joined by `and`.  At the ideal instance a float is an extended
real, `|x|` is `max x (-x)`, and the bit pattern of `+∞` denotes `⊤`.  Since
`max ⊥ (-⊥) = ⊤` and `max ⊤ (-⊤) = ⊤`, the strict inequality excludes both infinities, so
every entry is the coercion of a real number.
-/

noncomputable section

namespace Cert.Finite

open Idealize.ShloMosaic Idealize.SL.Sem

/-- The rank-0 shape has exactly one index. -/
instance : Subsingleton Cert.Pre_finite_inputs.S_.Idx := ⟨fun a b => funext fun d => d.elim0⟩

/-- The single-precision pattern with all exponent bits set and zero significand denotes `+∞`. -/
theorem inf_eq_top : Ideal.ofBits .f32 0x7F800000#32 = (⊤ : EReal) := by
  simp [Ideal.ofBits, Ideal.ieee]

/-- An extended real whose absolute value is strictly below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The element test of the precondition, read back. -/
theorem real_of_cmp (x : EReal)
    (h : Ideal.cmp .olt (max x (-x)) (Ideal.ofBits .f32 0x7F800000#32) = 1#1) :
    ∃ r : ℝ, x = (r : EReal) := by
  rw [inf_eq_top] at h
  apply real_of_abs_lt_top
  have h' : BitVec.ofBool (decide (max x (-x) < (⊤ : EReal))) = 1#1 := h
  by_cases hlt : max x (-x) < (⊤ : EReal)
  · exact hlt
  · rw [decide_eq_false hlt] at h'
    exact absurd h' (by decide)

/-- One argument array: if the conjunction over all indices of `|a i| < +∞` is true, every entry
of `a` is a real number. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_)
    (hu : 0 < Cert.Pre_finite_inputs.S_.numel) (init : IVec Cert.Pre_finite_inputs.S_ 1)
    (e : Host.reduce IntOp.andi
        (cmpf .olt (Host.absf a)
          (broadcastInDim s ![] hb (constant Cert.Pre_finite_inputs.S_ .f32 0x7F800000#32)))
        init hr hu ValueIdx.ix0 = 1#1)
    (i : s.Idx) : ∃ r : ℝ, a i = (r : EReal) :=
  real_of_cmp (a i) (Host.reduce_andi_all _ init hr hu ValueIdx.ix0 e i)

/-- Every entry of each of the five float argument arrays is a real number. -/
theorem args_real
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  have h0 := congrFun (h c) ValueIdx.ix0
  dsimp only [Cert.Pre_finite_inputs.fn, Cert.Pre_finite_inputs.fn_part1] at h0
  obtain ⟨h0345, e6⟩ := IntOp.andi_eq_one.1 h0
  obtain ⟨h034, e5⟩ := IntOp.andi_eq_one.1 h0345
  obtain ⟨h03, e4⟩ := IntOp.andi_eq_one.1 h034
  obtain ⟨e0, e3⟩ := IntOp.andi_eq_one.1 h03
  exact ⟨all_real _ _ _ _ _ e0, all_real _ _ _ _ _ e3, all_real _ _ _ _ _ e4,
    all_real _ _ _ _ _ e5, all_real _ _ _ _ _ e6⟩

end Cert.Finite
-- ==== Proof.lean ====
/-
  A two-layer graph convolution with mean pooling: the tiled kernel program against its plain reference.

  The kernel program scales the node features by the per-node factor deg^(−1/2), sums them along the edges into their
  target nodes, and only then projects (5 → 30), scales again, adds the bias and clamps at zero; for the second layer it
  projects (30 → 8), scales, sums along the edges, scales and adds the bias. The reference projects first and multiplies
  each edge's message by the product of the factors of the edge's two end nodes. On the extended reals, with every float
  argument finite, every degree is a finite count and every factor a real number, so both are the same real number at
  every node and column: distributivity moves the factors and the projection across the sum over the edges, and the
  factor the reference gathers at an edge's target end is the factor of the node the edge is accumulated into. Both
  programs then pool the node outputs per graph by the same operations.

  The three frame claims are the generated frame certificates of the two kernel programs and the reference's run; the
  idealization rewrote no operation, so the preservation claim is trivial.
-/
import proofs.«111428_j16561393893563_2_alg».proof.Defs
import proofs.«111428_j16561393893563_2_alg».proof.Proof.Gen.Kernel
import proofs.«111428_j16561393893563_2_alg».proof.Proof.Gen.Kernel.Skeleton
import proofs.«111428_j16561393893563_2_alg».proof.Proof.Gen.Kernel.Launch
import proofs.«111428_j16561393893563_2_alg».proof.Proof.Gen.Kernel.Points
import proofs.«111428_j16561393893563_2_alg».proof.Proof.Gen.Kernel.Frame
import proofs.«111428_j16561393893563_2_alg».proof.Proof.Gen.KernelIdeal
import proofs.«111428_j16561393893563_2_alg».proof.Proof.Gen.KernelIdeal.Skeleton
import proofs.«111428_j16561393893563_2_alg».proof.Proof.Gen.KernelIdeal.Launch
import proofs.«111428_j16561393893563_2_alg».proof.Proof.Gen.KernelIdeal.Points
import proofs.«111428_j16561393893563_2_alg».proof.Proof.Gen.KernelIdeal.Frame
import proofs.«111428_j16561393893563_2_alg».proof.Proof.Gen.ReferenceIdeal
import proofs.«111428_j16561393893563_2_alg».proof.Proof.Gen.Pre_finite_inputs
import proofs.«111428_j16561393893563_2_alg».proof.Proof.RefRun
import proofs.«111428_j16561393893563_2_alg».proof.Proof.RefRead
import proofs.«111428_j16561393893563_2_alg».proof.Proof.KRun
import proofs.«111428_j16561393893563_2_alg».proof.Proof.KValue
import proofs.«111428_j16561393893563_2_alg».proof.Proof.Bridge
import proofs.«111428_j16561393893563_2_alg».proof.Proof.Finite
import Idealize.ShloMosaic.Adequacy
import Idealize.ShloMosaic.Init

noncomputable section

namespace Cert.Proof

open Idealize.ShloMosaic Idealize.SL.Sem

/-- From memories agreeing on the arguments, both idealized programs run and end with the same result: the pooling tail
    of node outputs that agree entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W11 m ρ c (Proc.devRef .tc Cert.KernelIdeal.main_v57),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨f0, f3, f4, f5, f6⟩ := Cert.Finite.args_real m hpre c
  rw [Cert.ReferenceIdeal.Read.val_main_v101_eq, a0, a1, a2, a3, a4, a5, a6, Cert.Bridge.tail_eq]
  refine Eq.trans ?_ (Cert.KernelIdeal.KValue.result m ρ c).symm
  exact congrArg (fun h => Cert.KernelIdeal.HostT.tail h _) (Cert.Bridge.out_eq _ _ _ _ _ _ f0 f3 f4 f5 f6).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
